-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S32x512 : Shape := ⟨2, ![32, 512]⟩
abbrev S32 : Shape := ⟨1, ![32]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S8x512x128x128 .f32) (main_arg1 : FVec F S32x512 .f32) (main_arg2 : FVec F S32 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S8x512x128x128 : Shape := ⟨4, ![8, 512, 128, 128]⟩
abbrev S32x512 : Shape := ⟨2, ![32, 512]⟩
abbrev S32 : Shape := ⟨1, ![32]⟩
abbrev S8x512x16384 : Shape := ⟨3, ![8, 512, 16384]⟩
abbrev S_ : Shape := ⟨0, ![]⟩
abbrev S32x1 : Shape := ⟨2, ![32, 1]⟩
abbrev S512x32 : Shape := ⟨2, ![512, 32]⟩
abbrev S8x32x512 : Shape := ⟨3, ![8, 32, 512]⟩
abbrev S1x512x4096 : Shape := ⟨3, ![1, 512, 4096]⟩
abbrev S1x32x512 : Shape := ⟨3, ![1, 32, 512]⟩
abbrev S512x4096 : Shape := ⟨2, ![512, 4096]⟩
abbrev S32x4096 : Shape := ⟨2, ![32, 4096]⟩
abbrev S4096 : Shape := ⟨1, ![4096]⟩
abbrev S1x4096 : Shape := ⟨2, ![1, 4096]⟩
abbrev S1x32 : Shape := ⟨2, ![1, 32]⟩

abbrev nBuf : Space → Nat
  | .hbm => 16
  | .vmem => 10
  | .smem => 0
  | _ => 0

abbrev bufTy : (tb : Table) → Fin (tcTables nBuf tb) → BufTy
  | .hbm, ⟨0, _⟩ => ⟨S8x512x128x128, .f32⟩
  | .hbm, ⟨1, _⟩ => ⟨S32x512, .f32⟩
  | .hbm, ⟨2, _⟩ => ⟨S32, .f32⟩
  | .hbm, ⟨3, _⟩ => ⟨S8x512x16384, .f32⟩
  | .hbm, ⟨4, _⟩ => ⟨S32x512, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32x1, .f32⟩
  | .hbm, ⟨12, _⟩ => ⟨S32, .f32⟩
  | .hbm, ⟨13, _⟩ => ⟨S32x1, .f32⟩
  | .hbm, ⟨14, _⟩ => ⟨S512x32, .f32⟩
  | .hbm, ⟨15, _⟩ => ⟨S8x32x512, .f32⟩
  | .local _ .vmem, ⟨0, _⟩ => ⟨S1x512x4096, .f32⟩
  | .local _ .vmem, ⟨1, _⟩ => ⟨S1x512x4096, .f32⟩
  | .local _ .vmem, ⟨2, _⟩ => ⟨S32x512, .f32⟩
  | .local _ .vmem, ⟨3, _⟩ => ⟨S512x32, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .vmem, ⟨7, _⟩ => ⟨S1x32x512, .f32⟩
  | .local _ .vmem, ⟨8, _⟩ => ⟨S1x32x512, .f32⟩
  | .local _ .vmem, ⟨9, _⟩ => ⟨S512x32, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v51 : BitVec 1 := Scalar.cmpi .eq arg1 c3_i32
  let v52 : BitVec 32 := Scalar.extui v51
  let c0_i32_22 : BitVec 32 := 0#32
  let v53 : BitVec 1 := Scalar.cmpi .ne v52 c0_i32_22
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8x512x128x128_S8x512x16384 : S8x512x128x128.ShapeCasts S8x512x16384
  reducesTo_S32x512_S32_d1 : S32x512.ReducesTo [1] S32
  h_S_ : 0 < S_.numel
  shapeCasts_S32_S32x1 : S32.ShapeCasts S32x1
  bcast_S_S32 : S_.BroadcastsInDim S32 (![] : Fin 0 → Fin S32.rank)
  transposes_S32x512_S512x32_1_0 : S32x512.Transposes [1, 0] S512x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S32x512_S32x512_0_0 : ∀ a, (![0, 0] : Fin 2 → Nat) a + S32x512.size a ≤ S32x512.size a
  h_S32x512 : 0 < S32x512.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  bitsLt_bf16_f32 : FTy.bits .bf16 < FTy.bits .f32
  reduces_S512x4096_S4096 : S512x4096.Reduces [0] S4096
  shapeCasts_S4096_S1x4096 : S4096.ShapeCasts S1x4096
  broadcasts_S32x1_S32x4096 : S32x1.Broadcasts S32x4096
  broadcasts_S1x4096_S32x4096 : S1x4096.Broadcasts S32x4096
  reduces_S32x4096_S4096 : S32x4096.Reduces [0] S4096
  reduces_S32x4096_S32 : S32x4096.Reduces [1] S32
  transposes_S32x1_p1_0_S1x32 : S32x1.Transposes [1, 0] S1x32
  shapeCasts_S1x32_S1x32 : S1x32.ShapeCasts S1x32
  broadcasts_S1x32_S512x32 : S1x32.Broadcasts S512x32
  transposes_S512x32_p1_0_S32x512 : S512x32.Transposes [1, 0] S32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  dot_S32x512_S512x4096_S32x4096_1_0_0_1_n_n_wf : DotDims.WF S32x512 S512x4096 S32x4096 [1] [0] [0] [1] [] []
  dot_S512x4096_S32x4096_S512x32_1_1_0_0_n_n_wf : DotDims.WF S512x4096 S32x4096 S512x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x512x16384.size a
  hwx0_0 : ∀ i : grid0.Coords, EltTy.bits .f32 = 32 ∨ (Rect.block (s := S8x512x16384) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x512.size a ≤ S8x32x512.size a
  hwx0_6 : ∀ i : grid0.Coords, EltTy.bits .f32 = 32 ∨ (Rect.block (s := S8x32x512) S1x32x512.size (cc0_transform_6 i) (hinb0_6 i)).WholeWords (EltTy.packing .f32)

variable [Facts₀]

def dot_S32x512_S512x4096_S32x4096_1_0_0_1_n_n : DotDims S32x512 S512x4096 S32x4096 where
  lhsContracting := [1]
  rhsContracting := [0]
  lhsNonContracting := [0]
  rhsNonContracting := [1]
  lhsBatch := []
  rhsBatch := []
  wf := dot_S32x512_S512x4096_S32x4096_1_0_0_1_n_n_wf
def dot_S512x4096_S32x4096_S512x32_1_1_0_0_n_n : DotDims S512x4096 S32x4096 S512x32 where
  lhsContracting := [1]
  rhsContracting := [1]
  lhsNonContracting := [0]
  rhsNonContracting := [0]
  lhsBatch := []
  rhsBatch := []
  wf := dot_S512x4096_S32x4096_S512x32_1_1_0_0_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x32x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x512x128x128 : Shape := ⟨4, ![8, 512, 128, 128]⟩
abbrev S32x512 : Shape := ⟨2, ![32, 512]⟩
abbrev S32 : Shape := ⟨1, ![32]⟩
abbrev S8x512x16384 : Shape := ⟨3, ![8, 512, 16384]⟩
abbrev S8x16384x512 : Shape := ⟨3, ![8, 16384, 512]⟩
abbrev S_ : Shape := ⟨0, ![]⟩
abbrev S8x16384 : Shape := ⟨2, ![8, 16384]⟩
abbrev S8x16384x32 : Shape := ⟨3, ![8, 16384, 32]⟩
abbrev S8x16384x1 : Shape := ⟨3, ![8, 16384, 1]⟩
abbrev S1x1x32 : Shape := ⟨3, ![1, 1, 32]⟩
abbrev S8x32x512 : Shape := ⟨3, ![8, 32, 512]⟩
abbrev S8x32 : Shape := ⟨2, ![8, 32]⟩
abbrev S8x32x1 : Shape := ⟨3, ![8, 32, 1]⟩
abbrev S1x32x512 : Shape := ⟨3, ![1, 32, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S32x512, .f32⟩
  | .hbm, ⟨2, _⟩ => ⟨S32, .f32⟩
  | .hbm, ⟨3, _⟩ => ⟨S8x512x16384, .f32⟩
  | .hbm, ⟨4, _⟩ => ⟨S8x16384x512, .f32⟩
  | .hbm, ⟨5, _⟩ => ⟨S8x16384x512, .f32⟩
  | .hbm, ⟨6, _⟩ => ⟨S_, .f32⟩
  | .hbm, ⟨7, _⟩ => ⟨S8x16384, .f32⟩
  | .hbm, ⟨8, _⟩ => ⟨S32x512, .f32⟩
  | .hbm, ⟨9, _⟩ => ⟨S_, .f32⟩
  | .hbm, ⟨10, _⟩ => ⟨S32, .f32⟩
  | .hbm, ⟨11, _⟩ => ⟨S8x16384x32, .f32⟩
  | .hbm, ⟨12, _⟩ => ⟨S8x16384x1, .f32⟩
  | .hbm, ⟨13, _⟩ => ⟨S1x1x32, .f32⟩
  | .hbm, ⟨14, _⟩ => ⟨S8x16384x32, .f32⟩
  | .hbm, ⟨15, _⟩ => ⟨S8x16384x32, .f32⟩
  | .hbm, ⟨16, _⟩ => ⟨S8x16384x32, .f32⟩
  | .hbm, ⟨17, _⟩ => ⟨S_, .f32⟩
  | .hbm, ⟨18, _⟩ => ⟨S8x16384x32, .f32⟩
  | .hbm, ⟨19, _⟩ => ⟨S8x16384x32, .f32⟩
  | .hbm, ⟨20, _⟩ => ⟨S8x16384x32, .f32⟩
  | .hbm, ⟨21, _⟩ => ⟨S1x1x32, .f32⟩
  | .hbm, ⟨22, _⟩ => ⟨S8x16384x32, .f32⟩
  | .hbm, ⟨23, _⟩ => ⟨S8x16384x32, .f32⟩
  | .hbm, ⟨24, _⟩ => ⟨S_, .f32⟩
  | .hbm, ⟨25, _⟩ => ⟨S8x16384, .f32⟩
  | .hbm, ⟨26, _⟩ => ⟨S_, .f32⟩
  | .hbm, ⟨27, _⟩ => ⟨S8x16384, .f32⟩
  | .hbm, ⟨28, _⟩ => ⟨S8x16384, .f32⟩
  | .hbm, ⟨29, _⟩ => ⟨S8x16384x1, .f32⟩
  | .hbm, ⟨30, _⟩ => ⟨S8x16384x32, .f32⟩
  | .hbm, ⟨31, _⟩ => ⟨S8x16384x32, .f32⟩
  | .hbm, ⟨32, _⟩ => ⟨S8x16384x32, .f32⟩
  | .hbm, ⟨33, _⟩ => ⟨S_, .f32⟩
  | .hbm, ⟨34, _⟩ => ⟨S8x16384, .f32⟩
  | .hbm, ⟨35, _⟩ => ⟨S8x16384x1, .f32⟩
  | .hbm, ⟨36, _⟩ => ⟨S8x16384x32, .f32⟩
  | .hbm, ⟨37, _⟩ => ⟨S8x16384x32, .f32⟩
  | .hbm, ⟨38, _⟩ => ⟨S8x32x512, .f32⟩
  | .hbm, ⟨39, _⟩ => ⟨S_, .f32⟩
  | .hbm, ⟨40, _⟩ => ⟨S8x32, .f32⟩
  | .hbm, ⟨41, _⟩ => ⟨S8x32x1, .f32⟩
  | .hbm, ⟨42, _⟩ => ⟨S1x32x512, .f32⟩
  | .hbm, ⟨43, _⟩ => ⟨S8x32x512, .f32⟩
  | .hbm, ⟨44, _⟩ => ⟨S8x32x512, .f32⟩
  | .hbm, ⟨45, _⟩ => ⟨S8x32x512, .f32⟩
  | .hbm, ⟨46, _⟩ => ⟨S8x32x512, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S8x512x128x128_S8x512x16384 : S8x512x128x128.ShapeCasts S8x512x16384
  transposes_S8x512x16384_S8x16384x512_0_2_1 : S8x512x16384.Transposes [0, 2, 1] S8x16384x512
  reducesTo_S8x16384x512_S8x16384_d2 : S8x16384x512.ReducesTo [2] S8x16384
  h_S_ : 0 < S_.numel
  reducesTo_S32x512_S32_d1 : S32x512.ReducesTo [1] S32
  bcast_S8x16384_S8x16384x1_0_1 : S8x16384.BroadcastsInDim S8x16384x1 (![0, 1] : Fin 2 → Fin S8x16384x1.rank)
  bcast_S32_S1x1x32_2 : S32.BroadcastsInDim S1x1x32 (![2] : Fin 1 → Fin S1x1x32.rank)
  bcast_S8x16384x1_S8x16384x32_0_1_2 : S8x16384x1.BroadcastsInDim S8x16384x32 (![0, 1, 2] : Fin 3 → Fin S8x16384x32.rank)
  bcast_S1x1x32_S8x16384x32_0_1_2 : S1x1x32.BroadcastsInDim S8x16384x32 (![0, 1, 2] : Fin 3 → Fin S8x16384x32.rank)
  bcast_S_S8x16384x32 : S_.BroadcastsInDim S8x16384x32 (![] : Fin 0 → Fin S8x16384x32.rank)
  reducesTo_S8x16384x32_S8x16384_d2 : S8x16384x32.ReducesTo [2] S8x16384
  bcast_S_S8x16384 : S_.BroadcastsInDim S8x16384 (![] : Fin 0 → Fin S8x16384.rank)
  reducesTo_S8x16384x32_S8x32_d1 : S8x16384x32.ReducesTo [1] S8x32
  bcast_S8x32_S8x32x1_0_1 : S8x32.BroadcastsInDim S8x32x1 (![0, 1] : Fin 2 → Fin S8x32x1.rank)
  bcast_S32x512_S1x32x512_1_2 : S32x512.BroadcastsInDim S1x32x512 (![1, 2] : Fin 2 → Fin S1x32x512.rank)
  bcast_S8x32x1_S8x32x512_0_1_2 : S8x32x1.BroadcastsInDim S8x32x512 (![0, 1, 2] : Fin 3 → Fin S8x32x512.rank)
  bcast_S1x32x512_S8x32x512_0_1_2 : S1x32x512.BroadcastsInDim S8x32x512 (![0, 1, 2] : Fin 3 → Fin S8x32x512.rank)
  dot_S8x16384x512_S32x512_S8x16384x32_2_1_01_0_n_n_wf : DotDims.WF S8x16384x512 S32x512 S8x16384x32 [2] [1] [0, 1] [0] [] []
  dot_S8x16384x32_S8x16384x512_S8x32x512_1_1_2_2_0_0_wf : DotDims.WF S8x16384x32 S8x16384x512 S8x32x512 [1] [1] [2] [2] [0] [0]

variable [Facts₀]

def dot_S8x16384x512_S32x512_S8x16384x32_2_1_01_0_n_n : DotDims S8x16384x512 S32x512 S8x16384x32 where
  lhsContracting := [2]
  rhsContracting := [1]
  lhsNonContracting := [0, 1]
  rhsNonContracting := [0]
  lhsBatch := []
  rhsBatch := []
  wf := dot_S8x16384x512_S32x512_S8x16384x32_2_1_01_0_n_n_wf
def dot_S8x16384x32_S8x16384x512_S8x32x512_1_1_2_2_0_0 : DotDims S8x16384x32 S8x16384x512 S8x32x512 where
  lhsContracting := [1]
  rhsContracting := [1]
  lhsNonContracting := [2]
  rhsNonContracting := [2]
  lhsBatch := [0]
  rhsBatch := [0]
  wf := dot_S8x16384x32_S8x16384x512_S8x32x512_1_1_2_2_0_0_wf

class Facts : Prop extends Facts₀ where

variable [Facts]
-- ==== Proof.Pieces.lean ====
/-
  What one grid point leaves behind, read back as values.

  At every point the body overwrites the whole accumulator (a 512×32 scratch) with the UPDATE of what it held:
  `update acc = acc + (X·Aᵀ − Cᵀ ⊙ rowsum A)` computed from the point's input blocks. At the first point of a batch
  the accumulator is zeroed first, so the update is applied to the zero block; at the last point of a batch the
  output block is the transpose of the updated accumulator.
-/
import proofs.«130324_j36206574305918_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator's update at one point: the body's one store into the scratch, as a function of the six input
    blocks and of what the accumulator held. -/
def update (x0 : Vec F S1x512x4096 .f32) (x1 : Vec F S32x512 .f32) (x2 : Vec F S512x32 .f32) (x3 : Vec F S32x1 .f32) (x4 : Vec F S32x1 .f32) (x5 : Vec F S32x1 .f32) (acc : Vec F S512x32 .f32) : Vec F S512x32 .f32 :=
  k0_pay1 (k0_pay5 x2) (k0_pay6 x0) (k0_pay7 x0 x1 x3 x4 x5) (k0_pay8 x0 x1 x3 x4 x5) acc

/-- A middle point of a batch leaves the update of what the point before left. -/
theorem sout_B (c : Dev nD) (i : grid0.Coords) (a2 : Memref sig .tc .vmem S1x512x4096 .f32) (h2 : a2.IsWhole) (a3 : Memref sig .tc .vmem S32x512 .f32) (h3 : a3.IsWhole) (a4 : Memref sig .tc .vmem S512x32 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S1x32x512 .f32) (h8 : a8.IsWhole) (a9 : Memref sig .tc .vmem S512x32 .f32) (h9 : a9.IsWhole) (hc0 : ¬cond0_0 i) (hc1 : ¬cond0_1 i) (x0 : Vec F S1x512x4096 .f32) (x1 : Vec F S32x512 .f32) (x2 : Vec F S512x32 .f32) (x3 : Vec F S32x1 .f32) (x4 : Vec F S32x1 .f32) (x5 : Vec F S32x1 .f32) (xs0 : Vec F S512x32 .f32) :
    sout0_B_0 c i a2 h2 a3 h3 a4 h4 a5 h5 a6 h6 a7 h7 a8 h8 a9 h9 hc0 hc1 x0 x1 x2 x3 x4 x5 xs0 = update x0 x1 x2 x3 x4 x5 xs0 := by
  unfold sout0_B_0
  rw [View.read_writes_eq_canon _ _ _ (scover0_B_0 c i a2 h2 a3 h3 a4 h4 a5 h5 a6 h6 a7 h7 a8 h8 a9 h9 hc0 hc1 x0 x1 x2 x3 x4 x5 xs0)]
  unfold kernelRun0_B
  dsimp only
  sl_unfold_words
  rw [View.canon_unit_zero hz2]
  simp only [View.readAt_eq_ld, h2.read_unread, h3.read_unread, h4.read_unread, h5.read_unread, h6.read_unread, h7.read_unread, h9.read_unread, View.ld_unit_zero (S := S1x512x4096) hz3, View.ld_unit_zero (S := S32x512) hz2, View.ld_unit_zero (S := S512x32) hz2, View.ld_unit_zero (S := S32x1) hz2]
  rfl

/-- The last point of a batch leaves the same update in the accumulator … -/
theorem sout_C (c : Dev nD) (i : grid0.Coords) (a2 : Memref sig .tc .vmem S1x512x4096 .f32) (h2 : a2.IsWhole) (a3 : Memref sig .tc .vmem S32x512 .f32) (h3 : a3.IsWhole) (a4 : Memref sig .tc .vmem S512x32 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S1x32x512 .f32) (h8 : a8.IsWhole) (a9 : Memref sig .tc .vmem S512x32 .f32) (h9 : a9.IsWhole) (hc0 : ¬cond0_0 i) (hc1 : cond0_1 i) (x0 : Vec F S1x512x4096 .f32) (x1 : Vec F S32x512 .f32) (x2 : Vec F S512x32 .f32) (x3 : Vec F S32x1 .f32) (x4 : Vec F S32x1 .f32) (x5 : Vec F S32x1 .f32) (xs0 : Vec F S512x32 .f32) :
    sout0_C_0 c i a2 h2 a3 h3 a4 h4 a5 h5 a6 h6 a7 h7 a8 h8 a9 h9 hc0 hc1 x0 x1 x2 x3 x4 x5 xs0 = update x0 x1 x2 x3 x4 x5 xs0 := by
  unfold sout0_C_0
  rw [View.read_writes_eq_canon _ _ _ (scover0_C_0 c i a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz2]
  simp only [View.readAt_eq_ld, h2.read_unread, h3.read_unread, h4.read_unread, h5.read_unread, h6.read_unread, h7.read_unread, h9.read_unread, View.ld_unit_zero (S := S1x512x4096) hz3, View.ld_unit_zero (S := S32x512) hz2, View.ld_unit_zero (S := S512x32) hz2, View.ld_unit_zero (S := S32x1) hz2]
  rfl

/-- … and stores its transpose, as a 1×32×512 block, into the output's buffer. -/
theorem out_C (c : Dev nD) (i : grid0.Coords) (a2 : Memref sig .tc .vmem S1x512x4096 .f32) (h2 : a2.IsWhole) (a3 : Memref sig .tc .vmem S32x512 .f32) (h3 : a3.IsWhole) (a4 : Memref sig .tc .vmem S512x32 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S1x32x512 .f32) (h8 : a8.IsWhole) (a9 : Memref sig .tc .vmem S512x32 .f32) (h9 : a9.IsWhole) (hc0 : ¬cond0_0 i) (hc1 : cond0_1 i) (x0 : Vec F S1x512x4096 .f32) (x1 : Vec F S32x512 .f32) (x2 : Vec F S512x32 .f32) (x3 : Vec F S32x1 .f32) (x4 : Vec F S32x1 .f32) (x5 : Vec F S32x1 .f32) (xs0 : Vec F S512x32 .f32) :
    out0_C_6 c i a2 h2 a3 h3 a4 h4 a5 h5 a6 h6 a7 h7 a8 h8 a9 h9 hc0 hc1 x0 x1 x2 x3 x4 x5 xs0 = k0_pay2 (update x0 x1 x2 x3 x4 x5 xs0) := by
  unfold out0_C_6
  rw [View.read_writes_eq_canon _ _ _ (cover0_C_6 c i a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz3, View.readCov_unit_zero (S := S512x32) _ hz2]
  simp only [View.readAt_eq_ld, h2.read_unread, h3.read_unread, h4.read_unread, h5.read_unread, h6.read_unread, h7.read_unread, h9.read_unread, View.ld_unit_zero (S := S1x512x4096) hz3, View.ld_unit_zero (S := S32x512) hz2, View.ld_unit_zero (S := S512x32) hz2, View.ld_unit_zero (S := S32x1) hz2]
  rfl

/-- The first point of a batch zeroes the accumulator and leaves the update of the zero block. -/
theorem sout_A (c : Dev nD) (i : grid0.Coords) (a2 : Memref sig .tc .vmem S1x512x4096 .f32) (h2 : a2.IsWhole) (a3 : Memref sig .tc .vmem S32x512 .f32) (h3 : a3.IsWhole) (a4 : Memref sig .tc .vmem S512x32 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S1x32x512 .f32) (h8 : a8.IsWhole) (a9 : Memref sig .tc .vmem S512x32 .f32) (h9 : a9.IsWhole) (hc0 : cond0_0 i) (hc1 : ¬cond0_1 i) (x0 : Vec F S1x512x4096 .f32) (x1 : Vec F S32x512 .f32) (x2 : Vec F S512x32 .f32) (x3 : Vec F S32x1 .f32) (x4 : Vec F S32x1 .f32) (x5 : Vec F S32x1 .f32) :
    sout0_A_0 c i a2 h2 a3 h3 a4 h4 a5 h5 a6 h6 a7 h7 a8 h8 a9 h9 hc0 hc1 x0 x1 x2 x3 x4 x5 = update x0 x1 x2 x3 x4 x5 (k0_pay3 (F := F)) := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S512x32) hz2, View.readCov_unit_zero (S := S512x32) _ hz2]
  simp only [View.readAt_eq_ld, h2.read_unread, h3.read_unread, h4.read_unread, h5.read_unread, h6.read_unread, h7.read_unread, h9.read_unread, View.ld_unit_zero (S := S1x512x4096) hz3, View.ld_unit_zero (S := S32x512) hz2, View.ld_unit_zero (S := S512x32) hz2, View.ld_unit_zero (S := S32x1) hz2]
  rfl

end Cert.KernelIdeal.Pieces

end
-- ==== Proof.Spec.lean ====
/-
  The mathematics both programs compute, stated once over the extended reals.

  For a batch `b`, a position `n` (one of the 16384 columns of the reshaped input) and a codeword `k`, the scaled
  squared distance of the column `x = X[b, ·, n]` to the codeword `c = C[k, ·]` is `s·‖x − c‖²`; the kernel spells
  it `s·⟨x,x⟩ − (2s)·⟨c,x⟩ + s·⟨c,c⟩` (`distK`), the reference `s·((⟨x,x⟩ + ⟨c,c⟩) − 2·⟨x,c⟩)` (`distR`).
  The soft assignment is the softmax of these distances over the 32 codewords (`soft`), and the result is
  `E[b,k,d] = ∑ₙ A[b,n,k]·X[b,d,n] − (∑ₙ A[b,n,k])·C[k,d]`: the reference sums over all 16384 positions at once
  (`GR`), the kernel adds, from zero, the four partial terms of the tiles of 4096 positions (`GK`).
-/
import Idealize.ShloMosaic.PureOps.Ideal
import Idealize.ShloMosaic.Lib.ValueIdx

noncomputable section

namespace Cert.SoftAssign

open Idealize.ShloMosaic Idealize.ShloMosaic.ValueIdx

/-- The inner product of two vectors over a finite index type. -/
def dot {D : Type} [Fintype D] (u v : D → EReal) : EReal := ∑ d, u d * v d

/-- The kernel's spelling of `s·‖col − row‖²`: the three products, the middle one scaled by `two·s`. -/
def distK (two s : EReal) (row col : Fin 512 → EReal) : EReal :=
  s * dot col col - (two * s) * dot row col + s * (0 + dot row row)

/-- The reference's spelling of `s·‖col − row‖²`: the scale applied to the expanded square. -/
def distR (two s : EReal) (row col : Fin 512 → EReal) : EReal :=
  s * (((0 + dot col col) + (0 + dot row row)) - two * dot col row)

/-- The maximum of 32 extended reals, from `-∞`. -/
def smax (sl : Fin 32 → EReal) : EReal := (Finset.univ : Finset (Fin 32)).fold max ⊥ sl

/-- The softmax weight of entry `k` among 32: `exp (sl k − max) / ∑ exp (sl k' − max)`. -/
def soft (sl : Fin 32 → EReal) (k : Fin 32) : EReal :=
  Ideal.div (Ideal.exp (sl k - smax sl)) (∑ k', Ideal.exp (sl k' - smax sl))

/-- One tile's contribution to `E[b,k,d]`: `∑ₙ xₙ·aₙ − c·∑ₙ aₙ` over the tile's 4096 positions. -/
def tileTerm (x a : Fin 4096 → EReal) (c : EReal) : EReal := (∑ n, x n * a n) - c * ∑ n, a n

/-- Position `n` of tile `j` among the 16384 positions. -/
def tile (j : Fin 4) (n : Fin 4096) : Fin 16384 :=
  ⟨4096 * j.val + n.val, by have := j.isLt; have := n.isLt; omega⟩

abbrev SX : Shape := ⟨3, ![8, 512, 16384]⟩
abbrev SC : Shape := ⟨2, ![32, 512]⟩
abbrev SS : Shape := ⟨1, ![32]⟩

/-- Column `n` of batch `b`: the 512 features at one position. -/
def colOf (X : SX.Idx → EReal) (b : Fin 8) (n : Fin 16384) : Fin 512 → EReal := fun d => X (ix3 b d n)

/-- Codeword `k`: a row of the codebook. -/
def rowOf (cw : SC.Idx → EReal) (k : Fin 32) : Fin 512 → EReal := fun d => cw (ix2 k d)

/-- The kernel's soft assignment of position `n` of batch `b` to codeword `k`. -/
def assignK (two : EReal) (X : SX.Idx → EReal) (cw : SC.Idx → EReal) (sc : SS.Idx → EReal)
    (b : Fin 8) (n : Fin 16384) (k : Fin 32) : EReal :=
  soft (fun k' => distK two (sc (ix1 k')) (rowOf cw k') (colOf X b n)) k

/-- The reference's soft assignment of position `n` of batch `b` to codeword `k`. -/
def assignR (two : EReal) (X : SX.Idx → EReal) (cw : SC.Idx → EReal) (sc : SS.Idx → EReal)
    (b : Fin 8) (n : Fin 16384) (k : Fin 32) : EReal :=
  soft (fun k' => distR two (sc (ix1 k')) (rowOf cw k') (colOf X b n)) k

/-- Tile `j`'s term of the kernel's `E[b,k,d]`. -/
def termK (two : EReal) (X : SX.Idx → EReal) (cw : SC.Idx → EReal) (sc : SS.Idx → EReal)
    (b : Fin 8) (k : Fin 32) (d : Fin 512) (j : Fin 4) : EReal :=
  tileTerm (fun n => X (ix3 b d (tile j n))) (fun n => assignK two X cw sc b (tile j n) k) (cw (ix2 k d))

/-- The kernel's `E[b,k,d]`: the four tiles' terms added in order, from zero. -/
def GK (two : EReal) (X : SX.Idx → EReal) (cw : SC.Idx → EReal) (sc : SS.Idx → EReal)
    (b : Fin 8) (k : Fin 32) (d : Fin 512) : EReal :=
  (((0 + termK two X cw sc b k d 0) + termK two X cw sc b k d 1) + termK two X cw sc b k d 2) + termK two X cw sc b k d 3

/-- The reference's `E[b,k,d]`: both sums over all 16384 positions. -/
def GR (two : EReal) (X : SX.Idx → EReal) (cw : SC.Idx → EReal) (sc : SS.Idx → EReal)
    (b : Fin 8) (k : Fin 32) (d : Fin 512) : EReal :=
  (∑ n : Fin 16384, assignR two X cw sc b n k * X (ix3 b d n))
    - (0 + ∑ n : Fin 16384, assignR two X cw sc b n k) * cw (ix2 k d)

end Cert.SoftAssign

end
-- ==== Proof.Consts.lean ====
/-
  The float constants the two programs spell, as the extended reals their bit patterns denote.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `2.0` denotes the real `2`. -/
theorem ofBits_two : Ideal.ofBits .f32 0x40000000#32 = ((2 : ℝ) : EReal) := by
  simp [Ideal.ofBits, Ideal.ieee, -EReal.coe_mul]; norm_num

/-- The pattern of `-inf` denotes `⊥`. -/
theorem ofBits_neg_inf : Ideal.ofBits .f32 0xFF800000#32 = ⊥ := by
  simp [Ideal.ofBits, Ideal.ieee]

/-- The pattern of `+inf` denotes `⊤`. -/
theorem ofBits_inf : Ideal.ofBits .f32 0x7F800000#32 = ⊤ := by
  simp [Ideal.ofBits, Ideal.ieee]

end Cert.Consts

end
-- ==== Proof.Payload.lean ====
/-
  The body's arithmetic read at an index, over the extended reals.

  From one point's blocks — `X` (1×512×4096), the codebook `C` (32×512) and its transpose, and the three 32×1
  columns `s`, `2s`, `s·‖c‖²` — the soft assignment of position `n` to codeword `k` is the softmax over `k` of
  `s[k]·∑_d X[d,n]² − (2s)[k]·∑_d C[k,d]·X[d,n] + (s‖c‖²)[k]`, and the accumulator's update at `(d, k)` adds
  `∑ₙ X[d,n]·A[k,n] − Cᵀ[d,k]·∑ₙ A[k,n]` to what it held.
-/
import proofs.«130324_j36206574305918_2_alg».proof.Proof.Pieces
import proofs.«130324_j36206574305918_2_alg».proof.Proof.Spec
import proofs.«130324_j36206574305918_2_alg».proof.Proof.Consts
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen Cert.KernelIdeal.Pieces Cert.SoftAssign

/-! ## Layout operations of this body at an index -/

/-- A 32×1 column broadcast along the 4096 positions reads the column's entry. -/
theorem bcast_col_apply (v : FVec Ideal S32x1 .f32) (k : Fin 32) (n : Fin 4096) :
    broadcastTo S32x4096 v Facts₀.broadcasts_S32x1_S32x4096 (ix2 k n) = v (ix2 k (0 : Fin 1)) := by
  refine broadcastTo_apply v Facts₀.broadcasts_S32x1_S32x4096 (ix2 k n) (ix2 k (0 : Fin 1)) fun ax => ?_
  match ax with
  | ⟨0, _⟩ => rfl
  | ⟨1, _⟩ => rfl

/-- A vector of 32 entries cast to a 32×1 column reads the entry. -/
theorem cast_col_apply (v : FVec Ideal S32 .f32) (k : Fin 32) (u : Fin 1) :
    shapeCast S32x1 v Facts₀.shapeCasts_S32_S32x1 (ix2 k u) = v (ix1 k) :=
  shapeCast_apply v Facts₀.shapeCasts_S32_S32x1 _ _ (by
    have hu : u.val = 0 := by omega
    rw [Shape.rowMajor_val_two, Shape.rowMajor_val_one]
    show k.val = k.val * 1 + u.val
    omega)

/-! ## The reductions and products of this body at an index -/

/-- The sum over the 512 features of a 512×4096 block, at position `n`. -/
theorem sum_features_apply (v : FVec Ideal S512x4096 .f32) (n : Fin 4096) :
    multiReduction .add [0] S4096 v 0x00000000#32 Facts₀.reduces_S512x4096_S4096 (.inl rfl) rfl (ix1 n)
      = ∑ d : Fin 512, v (ix2 d n) :=
  (Ideal.multiReduction_add_single v 0x00000000#32 Facts₀.reduces_S512x4096_S4096 (.inl rfl) rfl (ix1 n)).trans
    (Finset.sum_congr rfl fun d _ => congrArg v (funext fun a => Fin.ext (by
      match a with | ⟨0, _⟩ => rfl | ⟨1, _⟩ => rfl)))

/-- The sum over the 32 codewords of a 32×4096 block, at position `n`. -/
theorem sum_codewords_apply (v : FVec Ideal S32x4096 .f32) (n : Fin 4096) :
    multiReduction .add [0] S4096 v 0x00000000#32 Facts₀.reduces_S32x4096_S4096 (.inl rfl) rfl (ix1 n)
      = ∑ k : Fin 32, v (ix2 k n) :=
  (Ideal.multiReduction_add_single v 0x00000000#32 Facts₀.reduces_S32x4096_S4096 (.inl rfl) rfl (ix1 n)).trans
    (Finset.sum_congr rfl fun d _ => congrArg v (funext fun a => Fin.ext (by
      match a with | ⟨0, _⟩ => rfl | ⟨1, _⟩ => rfl)))

/-- The maximum over the 32 codewords of a 32×4096 block, at position `n`, from `-∞`. -/
theorem max_codewords_apply (v : FVec Ideal S32x4096 .f32) (n : Fin 4096) :
    multiReduction .maximumf [0] S4096 v 0xFF800000#32 Facts₀.reduces_S32x4096_S4096 (.inl rfl) rfl (ix1 n)
      = smax (fun k => v (ix2 k n)) := by
  refine (Ideal.multiReduction_maximumf_single v 0xFF800000#32 Facts₀.reduces_S32x4096_S4096 (.inl rfl) rfl (ix1 n)).trans ?_
  unfold smax
  rw [Ideal.ofBits_def, Cert.Consts.ofBits_neg_inf]
  refine Finset.fold_congr fun k _ => ?_
  exact congrArg v (funext fun a => Fin.ext (by match a with | ⟨0, _⟩ => rfl | ⟨1, _⟩ => rfl))

/-- The sum over the 4096 positions of a 32×4096 block, at codeword `k`. -/
theorem sum_positions_apply (v : FVec Ideal S32x4096 .f32) (k : Fin 32) :
    multiReduction .add [1] S32 v 0x00000000#32 Facts₀.reduces_S32x4096_S32 (.inl rfl) rfl (ix1 k)
      = ∑ n : Fin 4096, v (ix2 k n) :=
  (Ideal.multiReduction_add_single v 0x00000000#32 Facts₀.reduces_S32x4096_S32 (.inl rfl) rfl (ix1 k)).trans
    (Finset.sum_congr rfl fun d _ => congrArg v (funext fun a => Fin.ext (by
      match a with | ⟨0, _⟩ => rfl | ⟨1, _⟩ => rfl)))

/-! ## The two matrix products at an index -/

theorem lhs1_0 (i : S32x4096.Idx) (q : dot_S32x512_S512x4096_S32x4096_1_0_0_1_n_n.contr.Idx) : (dot_S32x512_S512x4096_S32x4096_1_0_0_1_n_n.lhsIdx i q 0).val = (i 0).val := by
  unfold DotDims.lhsIdx
  rw [dif_neg (show ¬(0 : Fin S32x512.rank) ∈ dot_S32x512_S512x4096_S32x4096_1_0_0_1_n_n.lhsBatch by decide), dif_pos (show (0 : Fin S32x512.rank) ∈ dot_S32x512_S512x4096_S32x4096_1_0_0_1_n_n.lhsNonContracting by decide)]
  rfl
theorem lhs1_1 (i : S32x4096.Idx) (q : dot_S32x512_S512x4096_S32x4096_1_0_0_1_n_n.contr.Idx) : (dot_S32x512_S512x4096_S32x4096_1_0_0_1_n_n.lhsIdx i q 1).val = (q ⟨0, by decide⟩).val :=
  dot_S32x512_S512x4096_S32x4096_1_0_0_1_n_n.lhsIdx_val_of_single rfl i q
theorem rhs1_0 (i : S32x4096.Idx) (q : dot_S32x512_S512x4096_S32x4096_1_0_0_1_n_n.contr.Idx) : (dot_S32x512_S512x4096_S32x4096_1_0_0_1_n_n.rhsIdx i q 0).val = (q ⟨0, by decide⟩).val :=
  dot_S32x512_S512x4096_S32x4096_1_0_0_1_n_n.rhsIdx_val_of_single rfl i q
theorem rhs1_1 (i : S32x4096.Idx) (q : dot_S32x512_S512x4096_S32x4096_1_0_0_1_n_n.contr.Idx) : (dot_S32x512_S512x4096_S32x4096_1_0_0_1_n_n.rhsIdx i q 1).val = (i 1).val := by
  unfold DotDims.rhsIdx
  rw [dif_neg (show ¬(1 : Fin S512x4096.rank) ∈ dot_S32x512_S512x4096_S32x4096_1_0_0_1_n_n.rhsBatch by decide), dif_pos (show (1 : Fin S512x4096.rank) ∈ dot_S32x512_S512x4096_S32x4096_1_0_0_1_n_n.rhsNonContracting by decide)]
  rfl

/-- Codebook times block: at `(k, n)` the sum over the 512 features of `C[k,d]·X[d,n]`. -/
theorem codebook_matmul_apply (L : FVec Ideal S32x512 .bf16) (R : FVec Ideal S512x4096 .bf16) (k : Fin 32) (n : Fin 4096) :
    matmul dot_S32x512_S512x4096_S32x4096_1_0_0_1_n_n none L R (constant S32x4096 .f32 0x00000000#32) (ix2 k n)
      = ∑ d : Fin 512, L (ix2 k d) * R (ix2 d n) := by
  refine (Ideal.matmul_constant_zero_apply dot_S32x512_S512x4096_S32x4096_1_0_0_1_n_n none L R (ix2 k n)).trans ?_
  rw [← Equiv.sum_comp (ValueIdx.contrEquiv1 dot_S32x512_S512x4096_S32x4096_1_0_0_1_n_n 512 rfl rfl).symm]
  refine Finset.sum_congr rfl fun q _ => ?_
  have hk := ValueIdx.contrEquiv1_symm_val dot_S32x512_S512x4096_S32x4096_1_0_0_1_n_n 512 rfl rfl q
  have el : dot_S32x512_S512x4096_S32x4096_1_0_0_1_n_n.lhsIdx (ix2 k n) ((ValueIdx.contrEquiv1 dot_S32x512_S512x4096_S32x4096_1_0_0_1_n_n 512 rfl rfl).symm q) = ix2 k q :=
    funext fun a => Fin.ext (by
      match a with
      | ⟨0, _⟩ => exact lhs1_0 _ _
      | ⟨1, _⟩ => exact (lhs1_1 _ _).trans hk)
  have er : dot_S32x512_S512x4096_S32x4096_1_0_0_1_n_n.rhsIdx (ix2 k n) ((ValueIdx.contrEquiv1 dot_S32x512_S512x4096_S32x4096_1_0_0_1_n_n 512 rfl rfl).symm q) = ix2 q n :=
    funext fun a => Fin.ext (by
      match a with
      | ⟨0, _⟩ => exact (rhs1_0 _ _).trans hk
      | ⟨1, _⟩ => exact rhs1_1 _ _)
  rw [el, er]

theorem lhs2_0 (i : S512x32.Idx) (q : dot_S512x4096_S32x4096_S512x32_1_1_0_0_n_n.contr.Idx) : (dot_S512x4096_S32x4096_S512x32_1_1_0_0_n_n.lhsIdx i q 0).val = (i 0).val := by
  unfold DotDims.lhsIdx
  rw [dif_neg (show ¬(0 : Fin S512x4096.rank) ∈ dot_S512x4096_S32x4096_S512x32_1_1_0_0_n_n.lhsBatch by decide), dif_pos (show (0 : Fin S512x4096.rank) ∈ dot_S512x4096_S32x4096_S512x32_1_1_0_0_n_n.lhsNonContracting by decide)]
  rfl
theorem lhs2_1 (i : S512x32.Idx) (q : dot_S512x4096_S32x4096_S512x32_1_1_0_0_n_n.contr.Idx) : (dot_S512x4096_S32x4096_S512x32_1_1_0_0_n_n.lhsIdx i q 1).val = (q ⟨0, by decide⟩).val :=
  dot_S512x4096_S32x4096_S512x32_1_1_0_0_n_n.lhsIdx_val_of_single rfl i q
theorem rhs2_0 (i : S512x32.Idx) (q : dot_S512x4096_S32x4096_S512x32_1_1_0_0_n_n.contr.Idx) : (dot_S512x4096_S32x4096_S512x32_1_1_0_0_n_n.rhsIdx i q 0).val = (i 1).val := by
  unfold DotDims.rhsIdx
  rw [dif_neg (show ¬(0 : Fin S32x4096.rank) ∈ dot_S512x4096_S32x4096_S512x32_1_1_0_0_n_n.rhsBatch by decide), dif_pos (show (0 : Fin S32x4096.rank) ∈ dot_S512x4096_S32x4096_S512x32_1_1_0_0_n_n.rhsNonContracting by decide)]
  rfl
theorem rhs2_1 (i : S512x32.Idx) (q : dot_S512x4096_S32x4096_S512x32_1_1_0_0_n_n.contr.Idx) : (dot_S512x4096_S32x4096_S512x32_1_1_0_0_n_n.rhsIdx i q 1).val = (q ⟨0, by decide⟩).val :=
  dot_S512x4096_S32x4096_S512x32_1_1_0_0_n_n.rhsIdx_val_of_single rfl i q

/-- Block times assignment, contracted over the positions: at `(d, k)` the sum over the 4096 positions of `X[d,n]·A[k,n]`. -/
theorem aggregate_matmul_apply (L : FVec Ideal S512x4096 .bf16) (R : FVec Ideal S32x4096 .bf16) (d : Fin 512) (k : Fin 32) :
    matmul dot_S512x4096_S32x4096_S512x32_1_1_0_0_n_n none L R (constant S512x32 .f32 0x00000000#32) (ix2 d k)
      = ∑ n : Fin 4096, L (ix2 d n) * R (ix2 k n) := by
  refine (Ideal.matmul_constant_zero_apply dot_S512x4096_S32x4096_S512x32_1_1_0_0_n_n none L R (ix2 d k)).trans ?_
  rw [← Equiv.sum_comp (ValueIdx.contrEquiv1 dot_S512x4096_S32x4096_S512x32_1_1_0_0_n_n 4096 rfl rfl).symm]
  refine Finset.sum_congr rfl fun q _ => ?_
  have hk := ValueIdx.contrEquiv1_symm_val dot_S512x4096_S32x4096_S512x32_1_1_0_0_n_n 4096 rfl rfl q
  have el : dot_S512x4096_S32x4096_S512x32_1_1_0_0_n_n.lhsIdx (ix2 d k) ((ValueIdx.contrEquiv1 dot_S512x4096_S32x4096_S512x32_1_1_0_0_n_n 4096 rfl rfl).symm q) = ix2 d q :=
    funext fun a => Fin.ext (by
      match a with
      | ⟨0, _⟩ => exact lhs2_0 _ _
      | ⟨1, _⟩ => exact (lhs2_1 _ _).trans hk)
  have er : dot_S512x4096_S32x4096_S512x32_1_1_0_0_n_n.rhsIdx (ix2 d k) ((ValueIdx.contrEquiv1 dot_S512x4096_S32x4096_S512x32_1_1_0_0_n_n 4096 rfl rfl).symm q) = ix2 k q :=
    funext fun a => Fin.ext (by
      match a with
      | ⟨0, _⟩ => exact rhs2_0 _ _
      | ⟨1, _⟩ => exact (rhs2_1 _ _).trans hk)
  rw [el, er]

/-! ## The payloads at an index -/

theorem exp_apply {s : Shape} (v : FVec Ideal s .f32) (i : s.Idx) : exp v i = Ideal.exp (v i) := rfl

/-- The scaled distance of position `n` of the block to codeword `k`, from the block and the three columns. -/
def blkDist (x0 : Vec Ideal S1x512x4096 .f32) (x1 : Vec Ideal S32x512 .f32) (x3 x4 x5 : Vec Ideal S32x1 .f32)
    (n : Fin 4096) (k : Fin 32) : EReal :=
  x3 (ix2 k (0 : Fin 1)) * dot (fun d => x0 (ix3 (0 : Fin 1) d n)) (fun d => x0 (ix3 (0 : Fin 1) d n))
    - x4 (ix2 k (0 : Fin 1)) * dot (fun d => x1 (ix2 k d)) (fun d => x0 (ix3 (0 : Fin 1) d n))
    + x5 (ix2 k (0 : Fin 1))

/-- The soft assignment the body computes, at `(k, n)`: the softmax over the codewords of the scaled distances. -/
theorem pay7_apply (x0 : Vec Ideal S1x512x4096 .f32) (x1 : Vec Ideal S32x512 .f32) (x3 x4 x5 : Vec Ideal S32x1 .f32)
    (k : Fin 32) (n : Fin 4096) :
    k0_pay7 x0 x1 x3 x4 x5 (ix2 k n) = soft (fun k' => blkDist x0 x1 x3 x4 x5 n k') k := by
  unfold k0_pay7 k0_pay6 k0_pay4
  simp only [shapeCast_self, divf_apply, broadcastTo_1b_ab_apply, shapeCast_a_1a_apply]
  rw [sum_codewords_apply]
  simp only [exp_apply, subf_apply, broadcastTo_1b_ab_apply, shapeCast_a_1a_apply]
  rw [max_codewords_apply]
  simp only [addf_apply, subf_apply, mulf_apply, truncf_apply, bcast_col_apply, broadcastTo_1b_ab_apply,
    shapeCast_a_1a_apply, codebook_matmul_apply, shapeCast_1ab_ab_apply]
  rw [sum_features_apply]
  simp only [mulf_apply, shapeCast_1ab_ab_apply]
  rfl

/-- The accumulator's update at `(d, k)`: what it held plus the tile's term. -/
theorem update_apply (x0 : Vec Ideal S1x512x4096 .f32) (x1 : Vec Ideal S32x512 .f32) (x2 : Vec Ideal S512x32 .f32)
    (x3 x4 x5 : Vec Ideal S32x1 .f32) (acc : Vec Ideal S512x32 .f32) (d : Fin 512) (k : Fin 32) :
    update x0 x1 x2 x3 x4 x5 acc (ix2 d k)
      = acc (ix2 d k) + tileTerm (fun n => x0 (ix3 (0 : Fin 1) d n)) (fun n => soft (fun k' => blkDist x0 x1 x3 x4 x5 n k') k) (x2 (ix2 d k)) := by
  unfold update k0_pay1 k0_pay8 k0_pay5 k0_pay6 k0_pay4
  simp only [shapeCast_self, addf_apply, subf_apply, mulf_apply, truncf_apply, aggregate_matmul_apply,
    broadcastTo_1b_ab_apply, shapeCast_1ab_ab_apply]
  rw [transpose_ix2_apply, cast_col_apply, sum_positions_apply]
  simp only [pay7_apply]
  rfl

/-- The output block is the transpose of the accumulator: at `(0, k, d)` the accumulator's `(d, k)`. -/
theorem pay2_apply (v : Vec Ideal S512x32 .f32) (u : Fin 1) (k : Fin 32) (d : Fin 512) :
    k0_pay2 v (ix3 u k d) = v (ix2 d k) := by
  unfold k0_pay2
  rw [shapeCast_ab_1ab_apply, transpose_ix2_apply]

/-- The block the first point of a batch stores first is zero everywhere. -/
theorem pay3_apply (j : S512x32.Idx) : k0_pay3 (F := Ideal) j = 0 := by
  unfold k0_pay3
  simp only [shapeCast_self]
  exact Cert.Consts.ofBits_zero

end Cert.KernelIdeal.Payload

end
-- ==== Proof.Blocks.lean ====
/-
  The point's blocks and the arrays the region finds, read at an index.

  Point `t` of the grid is batch `t / 4`, tile `t % 4`: its block of the reshaped input is the 512×4096 slab of
  batch `t / 4` at positions `4096·(t % 4) …`, the other five windows are whole arrays, and the output block is
  batch `t / 4`'s 32×512 slab. The arrays the host wrote before the region are: the reshaped input, the codebook's
  transpose, and the three columns `s`, `2·s`, `s·‖c‖²`.
-/
import proofs.«130324_j36206574305918_2_alg».proof.Proof.Gen.KernelIdeal.Frame
import proofs.«130324_j36206574305918_2_alg».proof.Proof.Spec
import proofs.«130324_j36206574305918_2_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.SoftAssign

variable (m : (ℓ : Loc nD τ sig) → Buf (Elt Ideal) ℓ)

/-- The printed index maps over the grid: window 0 and the output move with the batch (and window 0 with the
    tile); the other windows stay at block zero. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 4 ∧ win0_6.index t (1 : Fin 3) = 0 ∧ win0_6.index t (2 : Fin 3) = 0 :=
  (by decide +kernel : ∀ t : Fin grid0.N, _)

/-- The codebook, the scale and the reshaped input, as the region finds them. -/
abbrev cwOf (c : Dev nD) : SC.Idx → EReal := m ((c.tc : Thread nD τ).loc main_arg1)
abbrev scOf (c : Dev nD) : SS.Idx → EReal := m ((c.tc : Thread nD τ).loc main_arg2)
abbrev xOf (c : Dev nD) : SX.Idx → EReal := V m c main_v0

/-! ## The arrays the region finds -/

theorem V_v0 (c : Dev nD) : (V m c main_v0 : S8x512x16384.Idx → EReal)
    = shapeCast S8x512x16384 (m ((c.tc : Thread nD τ).loc main_arg0)) Facts₀.shapeCasts_S8x512x128x128_S8x512x16384 := by
  dsimp only [Gen.V, Gen.hostOps0]; after_results; rfl

theorem V_v9 (c : Dev nD) : (V m c main_v9 : S512x32.Idx → EReal)
    = transpose S512x32 [1, 0] (m ((c.tc : Thread nD τ).loc main_arg1)) Facts₀.transposes_S32x512_S512x32_1_0 := by
  dsimp only [Gen.V, Gen.hostOps0]; after_results

theorem V_v3 (c : Dev nD) : (V m c main_v3 : S32x1.Idx → EReal)
    = shapeCast S32x1 (m ((c.tc : Thread nD τ).loc main_arg2)) Facts₀.shapeCasts_S32_S32x1 := by
  dsimp only [Gen.V, Gen.hostOps0]; after_results; rfl

theorem V_v6 (c : Dev nD) : (V m c main_v6 : S32x1.Idx → EReal)
    = shapeCast S32x1 (mulf (broadcastInDim S32 ![] Facts₀.bcast_S_S32 (constant (F := Ideal) S_ .f32 0x40000000#32))
        (m ((c.tc : Thread nD τ).loc main_arg2))) Facts₀.shapeCasts_S32_S32x1 := by
  dsimp only [Gen.V, Gen.hostOps0]; after_results; rfl

theorem V_v8 (c : Dev nD) : (V m c main_v8 : S32x1.Idx → EReal)
    = shapeCast S32x1 (mulf (m ((c.tc : Thread nD τ).loc main_arg2))
        (Host.reduceAdd (F := Ideal) (mulf (m ((c.tc : Thread nD τ).loc main_arg1)) (m ((c.tc : Thread nD τ).loc main_arg1)))
          (constant (F := Ideal) S_ .f32 0x00000000#32) Facts₀.reducesTo_S32x512_S32_d1 Facts₀.h_S_)) Facts₀.shapeCasts_S32_S32x1 := by
  dsimp only [Gen.V, Gen.hostOps0]; after_results; rfl

/-! ## The arrays at an index -/

/-- A vector of 32 entries cast to a 32×1 column reads the entry. -/
theorem cast_col_apply (v : S32.Idx → EReal) (k : Fin 32) (u : Fin 1) :
    shapeCast S32x1 v Facts₀.shapeCasts_S32_S32x1 (ix2 k u) = v (ix1 k) :=
  shapeCast_apply v Facts₀.shapeCasts_S32_S32x1 _ _ (by
    have hu : u.val = 0 := by omega
    rw [Shape.rowMajor_val_two, Shape.rowMajor_val_one]
    show k.val = k.val * 1 + u.val
    omega)

/-- The codebook's transpose at `(d, k)` is the codebook at `(k, d)`. -/
theorem V_v9_apply (c : Dev nD) (d : Fin 512) (k : Fin 32) :
    V m c main_v9 (ix2 d k) = cwOf m c (ix2 k d) :=
  (congrFun (V_v9 m c) (ix2 d k)).trans (transpose_ix2_apply _ _ d k)

/-- The scale column at `(k, 0)` is the scale at `k`. -/
theorem V_v3_apply (c : Dev nD) (k : Fin 32) (u : Fin 1) :
    V m c main_v3 (ix2 k u) = scOf m c (ix1 k) :=
  (congrFun (V_v3 m c) (ix2 k u)).trans (cast_col_apply _ k u)

/-- The doubled-scale column at `(k, 0)` is `2·s[k]`, the `2` as its float pattern. -/
theorem V_v6_apply (c : Dev nD) (k : Fin 32) (u : Fin 1) :
    V m c main_v6 (ix2 k u) = Ideal.ofBits .f32 0x40000000#32 * scOf m c (ix1 k) := by
  refine (congrFun (V_v6 m c) (ix2 k u)).trans ((cast_col_apply _ k u).trans ?_)
  show broadcastInDim S32 ![] Facts₀.bcast_S_S32 (constant (F := Ideal) S_ .f32 0x40000000#32) (ix1 k) * _ = _
  rw [broadcastInDim_apply _ Facts₀.bcast_S_S32 (constant (F := Ideal) S_ .f32 0x40000000#32) (ix1 k) ix0 (fun a => a.elim0)]
  rfl

/-- The third column at `(k, 0)` is `s[k]·(0 + ‖c_k‖²)`. -/
theorem V_v8_apply (c : Dev nD) (k : Fin 32) (u : Fin 1) :
    V m c main_v8 (ix2 k u) = scOf m c (ix1 k) * (0 + dot (rowOf (cwOf m c) k) (rowOf (cwOf m c) k)) := by
  refine (congrFun (V_v8 m c) (ix2 k u)).trans ((cast_col_apply _ k u).trans ?_)
  show scOf m c (ix1 k) * Host.reduceAdd (F := Ideal) (mulf (cwOf m c) (cwOf m c)) (constant (F := Ideal) S_ .f32 0x00000000#32) Facts₀.reducesTo_S32x512_S32_d1 Facts₀.h_S_ (ix1 k) = _
  refine congrArg (scOf m c (ix1 k) * ·) ?_
  simp only [Host.reduceAdd, Ideal.hostReduceAdd_def]
  rw [Ideal.hostReduceAdd_single Facts₀.reducesTo_S32x512_S32_d1 (by decide)]
  refine congrArg₂ (· + ·) Cert.Consts.ofBits_zero (Finset.sum_congr rfl fun d _ => ?_)
  have e : ∀ j : S32x512.Idx, j = ix2 k d →
      mulf (F := Ideal) (s := S32x512) (φ := .f32) (cwOf m c) (cwOf m c) j = rowOf (cwOf m c) k d * rowOf (cwOf m c) k d :=
    fun j hj => by rw [hj]; rfl
  exact e _ (funext fun a => Fin.ext (by match a with | ⟨0, _⟩ => rfl | ⟨1, _⟩ => rfl))

/-! ## The point's blocks at an index -/

/-- Window 0's block at point `t`: feature `d`, position `n` of the slab is the reshaped input at batch `t / 4`,
    feature `d`, position `4096·(t % 4) + n`. -/
theorem iblk0_apply (c : Dev nD) (t : Fin cfg0.N) (u : Fin 1) (d : Fin 512) (n : Fin 4096) (i : S8x512x16384.Idx)
    (h0 : (i 0).val = t.val / 4) (h1 : (i 1).val = d.val) (h2 : (i 2).val = 4096 * (t.val % 4) + n.val) :
    iblk m c 0 t (ix3 u d n) = xOf m c i := by
  obtain ⟨e0, e1, e2, -⟩ := idx_facts t
  unfold iblk
  rw [View.read_apply]
  show V m c main_v0 (((cfg0.win 0).blk t).view.emb (ix3 u d n)) = V m c main_v0 i
  refine congrArg (V m c main_v0) (funext fun a => Fin.ext ?_)
  have hu : u.val = 0 := by omega
  match a with
  | ⟨0, _⟩ => show win0_0.index t (0 : Fin 3) * 1 + 1 * u.val = (i 0).val; rw [e0, h0]; omega
  | ⟨1, _⟩ => show win0_0.index t (1 : Fin 3) * 512 + 1 * d.val = (i 1).val; rw [e1, h1]; omega
  | ⟨2, _⟩ => show win0_0.index t (2 : Fin 3) * 4096 + 1 * n.val = (i 2).val; rw [e2, h2]; omega

/-- Window 1's block is the whole codebook. -/
theorem iblk1_apply (c : Dev nD) (t : Fin cfg0.N) (k : Fin 32) (d : Fin 512) :
    iblk m c 1 t (ix2 k d) = cwOf m c (ix2 k d) := by
  obtain ⟨-, -, -, e0, e1, -⟩ := idx_facts t
  show iblk m c 1 t (ix2 k d) = m ((c.tc : Thread nD τ).loc main_arg1) (ix2 k d)
  rw [← V_main_arg1 m c]
  unfold iblk
  rw [View.read_apply]
  show V m c main_arg1 (((cfg0.win 1).blk t).view.emb (ix2 k d)) = V m c main_arg1 (ix2 k d)
  refine congrArg (V m c main_arg1) (funext fun a => Fin.ext ?_)
  match a with
  | ⟨0, _⟩ => show win0_1.index t (0 : Fin 2) * 32 + 1 * k.val = k.val; rw [e0]; omega
  | ⟨1, _⟩ => show win0_1.index t (1 : Fin 2) * 512 + 1 * d.val = d.val; rw [e1]; omega

/-- Window 2's block is the whole transposed codebook. -/
theorem iblk2_apply (c : Dev nD) (t : Fin cfg0.N) (d : Fin 512) (k : Fin 32) :
    iblk m c 2 t (ix2 d k) = cwOf m c (ix2 k d) := by
  obtain ⟨-, -, -, -, -, e0, e1, -⟩ := idx_facts t
  rw [← V_v9_apply m c d k]
  unfold iblk
  rw [View.read_apply]
  show V m c main_v9 (((cfg0.win 2).blk t).view.emb (ix2 d k)) = V m c main_v9 (ix2 d k)
  refine congrArg (V m c main_v9) (funext fun a => Fin.ext ?_)
  match a with
  | ⟨0, _⟩ => show win0_2.index t (0 : Fin 2) * 512 + 1 * d.val = d.val; rw [e0]; omega
  | ⟨1, _⟩ => show win0_2.index t (1 : Fin 2) * 32 + 1 * k.val = k.val; rw [e1]; omega

/-- Window 3's block is the scale column. -/
theorem iblk3_apply (c : Dev nD) (t : Fin cfg0.N) (k : Fin 32) (u : Fin 1) :
    iblk m c 3 t (ix2 k u) = scOf m c (ix1 k) := by
  obtain ⟨-, -, -, -, -, -, -, e0, e1, -⟩ := idx_facts t
  rw [← V_v3_apply m c k u]
  unfold iblk
  rw [View.read_apply]
  show V m c main_v3 (((cfg0.win 3).blk t).view.emb (ix2 k u)) = V m c main_v3 (ix2 k u)
  refine congrArg (V m c main_v3) (funext fun a => Fin.ext ?_)
  match a with
  | ⟨0, _⟩ => show win0_3.index t (0 : Fin 2) * 32 + 1 * k.val = k.val; rw [e0]; omega
  | ⟨1, _⟩ => show win0_3.index t (1 : Fin 2) * 1 + 1 * u.val = u.val; rw [e1]; omega

/-- Window 4's block is the doubled-scale column. -/
theorem iblk4_apply (c : Dev nD) (t : Fin cfg0.N) (k : Fin 32) (u : Fin 1) :
    iblk m c 4 t (ix2 k u) = Ideal.ofBits .f32 0x40000000#32 * scOf m c (ix1 k) := by
  obtain ⟨-, -, -, -, -, -, -, -, -, e0, e1, -⟩ := idx_facts t
  rw [← V_v6_apply m c k u]
  unfold iblk
  rw [View.read_apply]
  show V m c main_v6 (((cfg0.win 4).blk t).view.emb (ix2 k u)) = V m c main_v6 (ix2 k u)
  refine congrArg (V m c main_v6) (funext fun a => Fin.ext ?_)
  match a with
  | ⟨0, _⟩ => show win0_4.index t (0 : Fin 2) * 32 + 1 * k.val = k.val; rw [e0]; omega
  | ⟨1, _⟩ => show win0_4.index t (1 : Fin 2) * 1 + 1 * u.val = u.val; rw [e1]; omega

/-- Window 5's block is the third column. -/
theorem iblk5_apply (c : Dev nD) (t : Fin cfg0.N) (k : Fin 32) (u : Fin 1) :
    iblk m c 5 t (ix2 k u) = scOf m c (ix1 k) * (0 + dot (rowOf (cwOf m c) k) (rowOf (cwOf m c) k)) := by
  obtain ⟨-, -, -, -, -, -, -, -, -, -, -, e0, e1, -⟩ := idx_facts t
  rw [← V_v8_apply m c k u]
  unfold iblk
  rw [View.read_apply]
  show V m c main_v8 (((cfg0.win 5).blk t).view.emb (ix2 k u)) = V m c main_v8 (ix2 k u)
  refine congrArg (V m c main_v8) (funext fun a => Fin.ext ?_)
  match a with
  | ⟨0, _⟩ => show win0_5.index t (0 : Fin 2) * 32 + 1 * k.val = k.val; rw [e0]; omega
  | ⟨1, _⟩ => show win0_5.index t (1 : Fin 2) * 1 + 1 * u.val = u.val; rw [e1]; omega

end Cert.KernelIdeal.Blocks

end
-- ==== Proof.Accum.lean ====
/-
  The accumulator after every point, the output array after the run.

  By induction on the points: after point `t` (batch `t / 4`, tile `t % 4`) the accumulator holds, at `(d, k)`, the
  tile terms of that batch up to tile `t % 4` added in order from zero. The last point of a batch writes the
  accumulator's transpose to the batch's 32×512 slab of the output; the eight slabs cover the output array, so the
  array ends at the four-tile sum `GK` everywhere.
-/
import proofs.«130324_j36206574305918_2_alg».proof.Proof.Payload
import proofs.«130324_j36206574305918_2_alg».proof.Proof.Blocks
import proofs.«130324_j36206574305918_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Payload Cert.KernelIdeal.Blocks Cert.SoftAssign

variable (m : (ℓ : Loc nD τ sig) → Buf (Elt Ideal) ℓ) (ρ : Dev nD → PrngReg)

/-- The float pattern of `2.0`, as the extended real it denotes. -/
abbrev two : EReal := Ideal.ofBits .f32 0x40000000#32

/-! ## One point's update, over the arrays -/

/-- The tile term the body computes from point `t`'s blocks is tile `j`'s term of batch `b`, for `t = 4b + j`. -/
theorem blk_term (c : Dev nD) (t : Fin cfg0.N) (b : Fin 8) (j : Fin 4) (ht : t.val = 4 * b.val + j.val) (d : Fin 512) (k : Fin 32) :
    tileTerm (fun n => iblk m c 0 t (ix3 (0 : Fin 1) d n))
        (fun n => soft (fun k' => blkDist (iblk m c 0 t) (iblk m c 1 t) (iblk m c 3 t) (iblk m c 4 t) (iblk m c 5 t) n k') k)
        (iblk m c 2 t (ix2 d k))
      = termK two (xOf m c) (cwOf m c) (scOf m c) b k d j := by
  have hj := j.isLt
  have e0 : ∀ (d' : Fin 512) (n : Fin 4096), iblk m c 0 t (ix3 (0 : Fin 1) d' n) = xOf m c (ix3 b d' (tile j n)) := fun d' n =>
    iblk0_apply m c t 0 d' n (ix3 b d' (tile j n)) (by show b.val = t.val / 4; omega) rfl
      (by show 4096 * j.val + n.val = 4096 * (t.val % 4) + n.val; omega)
  simp only [blkDist, e0, iblk1_apply, iblk2_apply, iblk3_apply, iblk4_apply, iblk5_apply]
  rfl

/-- One point's update at `(d, k)`: what the accumulator held plus the point's tile term. -/
theorem step_apply (c : Dev nD) (t : Fin cfg0.N) (b : Fin 8) (j : Fin 4) (ht : t.val = 4 * b.val + j.val)
    (acc : Vec Ideal S512x32 .f32) (d : Fin 512) (k : Fin 32) :
    update (iblk m c 0 t) (iblk m c 1 t) (iblk m c 2 t) (iblk m c 3 t) (iblk m c 4 t) (iblk m c 5 t) acc (ix2 d k)
      = acc (ix2 d k) + termK two (xOf m c) (cwOf m c) (scOf m c) b k d j :=
  (update_apply (iblk m c 0 t) (iblk m c 1 t) (iblk m c 2 t) (iblk m c 3 t) (iblk m c 4 t) (iblk m c 5 t) acc d k).trans
    (congrArg (acc (ix2 d k) + ·) (blk_term m c t b j ht d k))

/-! ## What each kind of point leaves -/

/-- A batch's first point leaves the update of the zero block. -/
theorem snd_A (c : Dev nD) (t : Fin cfg0.N) (h0 : t.val % 4 = 0) (h1 : ¬t.val % 4 = 3) :
    (outsAt0 m c t.val t.isLt).2 = update (iblk m c 0 t) (iblk m c 1 t) (iblk m c 2 t) (iblk m c 3 t) (iblk m c 4 t) (iblk m c 5 t) (k0_pay3 (F := Ideal)) :=
  (congrArg Prod.snd (outsAt0_A m c t h0 h1)).trans
    (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t))

/-- A middle point leaves the update of what the point before left. -/
theorem snd_B (c : Dev nD) (t : Fin cfg0.N) (h0 : ¬t.val % 4 = 0) (h1 : ¬t.val % 4 = 3) :
    (outsAt0 m c t.val t.isLt).2 = update (iblk m c 0 t) (iblk m c 1 t) (iblk m c 2 t) (iblk m c 3 t) (iblk m c 4 t) (iblk m c 5 t)
      (outsAt0 m c (t.val - 1) (Nat.lt_of_le_of_lt (Nat.sub_le _ _) t.isLt)).2 :=
  (congrArg Prod.snd (outsAt0_B m c t h0 h1)).trans
    (sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).2)

/-- A batch's last point leaves the same update … -/
theorem snd_C (c : Dev nD) (t : Fin cfg0.N) (h0 : ¬t.val % 4 = 0) (h1 : t.val % 4 = 3) :
    (outsAt0 m c t.val t.isLt).2 = update (iblk m c 0 t) (iblk m c 1 t) (iblk m c 2 t) (iblk m c 3 t) (iblk m c 4 t) (iblk m c 5 t)
      (outsAt0 m c (t.val - 1) (Nat.lt_of_le_of_lt (Nat.sub_le _ _) t.isLt)).2 :=
  (congrArg Prod.snd (outsAt0_C m c t h0 h1)).trans
    (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
      (outsAt0 m c (t.val - 1) (Nat.lt_of_le_of_lt (Nat.sub_le _ _) t.isLt)).2)

/-- … and its transpose in the output's buffer. -/
theorem fst_C' (c : Dev nD) (t : Fin cfg0.N) (h0 : ¬t.val % 4 = 0) (h1 : t.val % 4 = 3) :
    (outsAt0 m c t.val t.isLt).1 = k0_pay2 (F := Ideal) (update (F := Ideal) (iblk m c 0 t) (iblk m c 1 t) (iblk m c 2 t) (iblk m c 3 t) (iblk m c 4 t) (iblk m c 5 t)
      (outsAt0 m c (t.val - 1) (Nat.lt_of_le_of_lt (Nat.sub_le _ _) t.isLt)).2) := by
  have e1 : (outsAt0 m c t.val t.isLt).1 = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2 := by
    simp only [outsAt0_C m c t h0 h1]
  rw [e1]
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

theorem fst_C (c : Dev nD) (t : Fin cfg0.N) (h0 : ¬t.val % 4 = 0) (h1 : t.val % 4 = 3) :
    (outsAt0 m c t.val t.isLt).1 = k0_pay2 (outsAt0 m c t.val t.isLt).2 :=
  (fst_C' m c t h0 h1).trans (congrArg (k0_pay2 (F := Ideal)) (snd_C m c t h0 h1).symm)

/-! ## The accumulator after each point -/

/-- Point `n`'s batch and tile. -/
abbrev batchOf (n : ℕ) : Fin 8 := ⟨n / 4 % 8, Nat.mod_lt _ (by decide)⟩
abbrev tileOf (n : ℕ) : Fin 4 := ⟨n % 4, Nat.mod_lt _ (by decide)⟩

/-- What the accumulator holds at `(d, k)` after point `n`: the batch's tile terms up to this tile, added in order
    from zero (the sum restarts at each batch's first point). -/
def accN (c : Dev nD) : ℕ → Fin 512 → Fin 32 → EReal
  | 0 => fun d k => 0 + termK two (xOf m c) (cwOf m c) (scOf m c) (batchOf 0) k d (tileOf 0)
  | n + 1 => fun d k =>
    if (n + 1) % 4 = 0 then 0 + termK two (xOf m c) (cwOf m c) (scOf m c) (batchOf (n + 1)) k d (tileOf (n + 1))
    else accN c n d k + termK two (xOf m c) (cwOf m c) (scOf m c) (batchOf (n + 1)) k d (tileOf (n + 1))

theorem point_eq (n : ℕ) (h : n < cfg0.N) : (⟨n, h⟩ : Fin cfg0.N).val = 4 * (batchOf n).val + (tileOf n).val := by
  have hN : n < 32 := lt_of_lt_of_eq h (show cfg0.N = 32 from N_0)
  show n = 4 * (n / 4 % 8) + n % 4
  omega

/-- The carried scratch after point `n` is `accN`, entry by entry. -/
theorem outs_eq (c : Dev nD) : ∀ (n : ℕ) (h : n < cfg0.N) (d : Fin 512) (k : Fin 32),
    (outsAt0 m c n h).2 (ix2 d k) = accN m c n d k
  | 0, h, d, k =>
    (congrFun (snd_A m c ⟨0, h⟩ rfl (by show ¬(0 % 4 = 3); decide)) (ix2 d k)).trans
      ((step_apply m c ⟨0, h⟩ (batchOf 0) (tileOf 0) (point_eq 0 h) _ d k).trans
        (congrArg (· + termK two (xOf m c) (cwOf m c) (scOf m c) (batchOf 0) k d (tileOf 0)) (pay3_apply _)))
  | n + 1, h, d, k => by
    have hN : n + 1 < 32 := lt_of_lt_of_eq h (show cfg0.N = 32 from N_0)
    by_cases h0 : (n + 1) % 4 = 0
    · have h1 : ¬(n + 1) % 4 = 3 := by omega
      refine (congrFun (snd_A m c ⟨n + 1, h⟩ h0 h1) (ix2 d k)).trans ?_
      refine (step_apply m c ⟨n + 1, h⟩ (batchOf (n + 1)) (tileOf (n + 1)) (point_eq (n + 1) h) _ d k).trans ?_
      rw [pay3_apply]
      simp only [accN, if_pos h0]
    · have ih := outs_eq c n (Nat.lt_of_succ_lt h) d k
      have key : (outsAt0 m c (n + 1) h).2 (ix2 d k)
          = (outsAt0 m c n (Nat.lt_of_succ_lt h)).2 (ix2 d k)
            + termK two (xOf m c) (cwOf m c) (scOf m c) (batchOf (n + 1)) k d (tileOf (n + 1)) := by
        by_cases h1 : (n + 1) % 4 = 3
        · exact (congrFun (snd_C m c ⟨n + 1, h⟩ h0 h1) (ix2 d k)).trans
            (step_apply m c ⟨n + 1, h⟩ (batchOf (n + 1)) (tileOf (n + 1)) (point_eq (n + 1) h) _ d k)
        · exact (congrFun (snd_B m c ⟨n + 1, h⟩ h0 h1) (ix2 d k)).trans
            (step_apply m c ⟨n + 1, h⟩ (batchOf (n + 1)) (tileOf (n + 1)) (point_eq (n + 1) h) _ d k)
      rw [key, ih]
      simp only [accN, if_neg h0]

/-- After a batch's last point the accumulator holds the kernel's four-tile sum. -/
theorem accN_last (c : Dev nD) (b : Fin 8) (d : Fin 512) (k : Fin 32) :
    accN m c (4 * b.val + 3) d k = GK two (xOf m c) (cwOf m c) (scOf m c) b k d := by
  have hb := b.isLt
  have e3 : batchOf (4 * b.val + 3) = b := Fin.ext (by show (4 * b.val + 3) / 4 % 8 = b.val; omega)
  have e2 : batchOf (4 * b.val + 2) = b := Fin.ext (by show (4 * b.val + 2) / 4 % 8 = b.val; omega)
  have e1 : batchOf (4 * b.val + 1) = b := Fin.ext (by show (4 * b.val + 1) / 4 % 8 = b.val; omega)
  have e0 : batchOf (4 * b.val) = b := Fin.ext (by show (4 * b.val) / 4 % 8 = b.val; omega)
  have t3 : tileOf (4 * b.val + 3) = 3 := Fin.ext (by show (4 * b.val + 3) % 4 = 3; omega)
  have t2 : tileOf (4 * b.val + 2) = 2 := Fin.ext (by show (4 * b.val + 2) % 4 = 2; omega)
  have t1 : tileOf (4 * b.val + 1) = 1 := Fin.ext (by show (4 * b.val + 1) % 4 = 1; omega)
  have t0 : tileOf (4 * b.val) = 0 := Fin.ext (by show (4 * b.val) % 4 = 0; omega)
  have s3 : accN m c (4 * b.val + 2 + 1) d k = accN m c (4 * b.val + 2) d k
      + termK two (xOf m c) (cwOf m c) (scOf m c) (batchOf (4 * b.val + 2 + 1)) k d (tileOf (4 * b.val + 2 + 1)) := by
    simp only [accN, if_neg (show ¬(4 * b.val + 2 + 1) % 4 = 0 by omega)]
  have s2 : accN m c (4 * b.val + 1 + 1) d k = accN m c (4 * b.val + 1) d k
      + termK two (xOf m c) (cwOf m c) (scOf m c) (batchOf (4 * b.val + 1 + 1)) k d (tileOf (4 * b.val + 1 + 1)) := by
    simp only [accN, if_neg (show ¬(4 * b.val + 1 + 1) % 4 = 0 by omega)]
  have s1 : accN m c (4 * b.val + 1) d k = accN m c (4 * b.val) d k
      + termK two (xOf m c) (cwOf m c) (scOf m c) (batchOf (4 * b.val + 1)) k d (tileOf (4 * b.val + 1)) := by
    simp only [accN, if_neg (show ¬(4 * b.val + 1) % 4 = 0 by omega)]
  have s0 : accN m c (4 * b.val) d k
      = 0 + termK two (xOf m c) (cwOf m c) (scOf m c) (batchOf (4 * b.val)) k d (tileOf (4 * b.val)) := by
    rcases Nat.eq_zero_or_pos b.val with hz | hp
    · rw [hz]; rfl
    · obtain ⟨p, hp'⟩ : ∃ p, 4 * b.val = p + 1 := ⟨4 * b.val - 1, by omega⟩
      rw [hp']
      simp only [accN, if_pos (show (p + 1) % 4 = 0 by omega)]
  show accN m c (4 * b.val + 2 + 1) d k = _
  rw [s3, show 4 * b.val + 2 = 4 * b.val + 1 + 1 from rfl, s2, s1, s0]
  rw [show 4 * b.val + 1 + 1 + 1 = 4 * b.val + 3 from rfl, show 4 * b.val + 1 + 1 = 4 * b.val + 2 from rfl, e3, e2, e1, e0, t3, t2, t1, t0]
  rfl

end Cert.KernelIdeal.Accum

end
-- ==== Proof.Result.lean ====
/-
  The output array after the run: every entry is the kernel's four-tile sum.

  The last point of batch `b` writes back the batch's 32×512 slab: the accumulator's transpose, that is, `GK` at
  `(b, k, d)`. The eight slabs cover the output, so the array ends at `GK` everywhere.
-/
import proofs.«130324_j36206574305918_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Payload Cert.KernelIdeal.Blocks Cert.KernelIdeal.Accum Cert.SoftAssign

variable (m : (ℓ : Loc nD τ sig) → Buf (Elt Ideal) ℓ) (ρ : Dev nD → PrngReg)

/-- The array the kernel's result ends holding: `GK` at each `(b, k, d)`. -/
def Gout (c : Dev nD) : S8x32x512.Idx → EReal :=
  fun i => GK two (xOf m c) (cwOf m c) (scOf m c) (i 0) (i 1) (i 2)

theorem Gout_apply (c : Dev nD) (i : S8x32x512.Idx) (b : Fin 8) (k : Fin 32) (d : Fin 512)
    (h0 : (i 0).val = b.val) (h1 : (i 1).val = k.val) (h2 : (i 2).val = d.val) :
    Gout m c i = GK two (xOf m c) (cwOf m c) (scOf m c) b k d := by
  have e0 : (i 0 : Fin 8) = b := Fin.ext h0
  have e1 : (i 1 : Fin 32) = k := Fin.ext h1
  have e2 : (i 2 : Fin 512) = d := Fin.ext h2
  show GK two (xOf m c) (cwOf m c) (scOf m c) (i 0) (i 1) (i 2) = _
  rw [e0, e1, e2]

/-- What a batch's last point writes back is the batch's slab of `Gout`. -/
theorem flushed_eq (c : Dev nD) (t : Fin cfg0.N) (hf : (cfg0.win 6).flush t = true) :
    (dats m 0 c).flushed 6 t = ((cfg0.win 6).blk t).view.read (Elt Ideal) (Gout m c) := by
  have hN : t.val < 32 := lt_of_lt_of_eq t.isLt (show cfg0.N = 32 from N_0)
  have h3 : t.val % 4 = 3 := (flush0_6 t).mp hf
  have h0 : ¬t.val % 4 = 0 := by omega
  obtain ⟨-, -, -, -, -, -, -, -, -, -, -, -, -, e0, e1, e2⟩ := idx_facts t
  rw [Value.flushed6, fst_C m c t h0 h3]
  funext y
  obtain ⟨u, k, d, rfl⟩ : ∃ (u : Fin 1) (k : Fin 32) (d : Fin 512), y = ix3 u k d :=
    ⟨y 0, y 1, y 2, eq_ix3 (n0 := 1) (n1 := 32) (n2 := 512) y⟩
  show k0_pay2 (outsAt0 m c t.val t.isLt).2 (ix3 u k d) = Gout m c (((cfg0.win 6).blk t).view.emb (ix3 u k d))
  rw [pay2_apply, outs_eq m c t.val t.isLt d k]
  have hb : t.val / 4 < 8 := by omega
  have hu : u.val = 0 := by omega
  rw [Gout_apply m c _ ⟨t.val / 4, hb⟩ k d
    (by show win0_6.index t (0 : Fin 3) * 1 + 1 * u.val = t.val / 4; rw [e0]; omega)
    (by show win0_6.index t (1 : Fin 3) * 32 + 1 * k.val = k.val; rw [e1]; omega)
    (by show win0_6.index t (2 : Fin 3) * 512 + 1 * d.val = d.val; rw [e2]; omega)]
  have ht : t.val = 4 * (t.val / 4) + 3 := by omega
  have := accN_last m c ⟨t.val / 4, hb⟩ d k
  rw [← this]
  show accN m c t.val d k = accN m c (4 * (t.val / 4) + 3) d k
  rw [← ht]

/-- An index of the output is in point `t`'s block iff each coordinate is in the block's range on its axis. -/
theorem mem_blk (t : Fin cfg0.N) (i : S8x32x512.Idx) :
    i ∈ ((cfg0.win 6).blk t).view.set ↔ ∀ a : Fin 3, win0_6.index t a * S1x32x512.size a ≤ (i a).val
      ∧ (i a).val < win0_6.index t a * S1x32x512.size a + S1x32x512.size a := by
  show i ∈ ((View.whole main_v10).slice (win0_6.rect t)).set ↔ _
  rw [View.set_slice_whole, Rect.mem_set_unit]
  exact Iff.rfl

/-- The output array after the run is `Gout`: the last point of batch `i 0` covers index `i`. -/
theorem final (c : Dev nD) : (dats m 0 c).arrAt 6 cfg0.N = Gout m c :=
  (dats m 0 c).arrAt_eq_of_cover 6 (Gout m c) (flushed_eq m c) fun i => by
    have hi0 : (i 0).val < 8 := (i 0).isLt
    have hi1 : (i 1).val < 32 := (i 1).isLt
    have hi2 : (i 2).val < 512 := (i 2).isLt
    have hN : cfg0.N = 32 := N_0
    have hlt : 4 * (i 0).val + 3 < cfg0.N := by rw [hN]; omega
    refine ⟨⟨4 * (i 0).val + 3, hlt⟩, (flush0_6 _).mpr (by show (4 * (i 0).val + 3) % 4 = 3; omega), ?_⟩
    obtain ⟨-, -, -, -, -, -, -, -, -, -, -, -, -, e0, e1, e2⟩ := idx_facts ⟨4 * (i 0).val + 3, hlt⟩
    rw [mem_blk]
    intro a
    match a with
    | ⟨0, _⟩ =>
      show win0_6.index ⟨4 * (i 0).val + 3, hlt⟩ (0 : Fin 3) * 1 ≤ (i 0).val ∧ (i 0).val < win0_6.index ⟨4 * (i 0).val + 3, hlt⟩ (0 : Fin 3) * 1 + 1
      rw [e0]; show (4 * (i 0).val + 3) / 4 * 1 ≤ (i 0).val ∧ (i 0).val < (4 * (i 0).val + 3) / 4 * 1 + 1; omega
    | ⟨1, _⟩ =>
      show win0_6.index ⟨4 * (i 0).val + 3, hlt⟩ (1 : Fin 3) * 32 ≤ (i 1).val ∧ (i 1).val < win0_6.index ⟨4 * (i 0).val + 3, hlt⟩ (1 : Fin 3) * 32 + 32
      rw [e1]; omega
    | ⟨2, _⟩ =>
      show win0_6.index ⟨4 * (i 0).val + 3, hlt⟩ (2 : Fin 3) * 512 ≤ (i 2).val ∧ (i 2).val < win0_6.index ⟨4 * (i 0).val + 3, hlt⟩ (2 : Fin 3) * 512 + 512
      rw [e2]; omega

/-- The kernel's run, read: the result array ends at `Gout`, the arguments unchanged. -/
theorem run : θ_run defs (onTc (τ := τ) (main (F := Ideal))) ⟨m, fun _ => 0, ρ⟩ fun r => ∀ c : Dev nD,
      r.2.mem ((c : Thread nD τ).loc main_v10) = Gout m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.RefRead.lean ====
/-
  The reference program's result, read at an index, is the specification's `GR`.

  Each stage of the reference is read at explicit coordinates: the transposed input at (b, n, d) is the reshaped
  input at (b, d, n); the scaled distance at (b, n, k) is `distR`; the row maximum at (b, n) is `smax` of the 32
  distances; the normalised exponential at (b, n, k) is `assignR`; and the result at (b, k, d) is the difference
  of the two sums over the 16384 positions.
-/
import proofs.«130324_j36206574305918_2_alg».proof.Proof.Gen.ReferenceIdeal.Read
import proofs.«130324_j36206574305918_2_alg».proof.Proof.Spec
import proofs.«130324_j36206574305918_2_alg».proof.Proof.Consts
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.SoftAssign Idealize.ShloMosaic
  Idealize.ShloMosaic.TcCoe Idealize.ShloMosaic.ValueIdx

/-- The constant two of the reference, as an extended real. -/
abbrev two : EReal := Ideal.ofBits .f32 0x40000000#32

variable (x0 : (⟨S8x512x128x128, .f32⟩ : BufTy).Contents (Elt Ideal))
  (x1 : (⟨S32x512, .f32⟩ : BufTy).Contents (Elt Ideal)) (x2 : (⟨S32, .f32⟩ : BufTy).Contents (Elt Ideal))

/-- The transposed input at (b, n, d) is the reshaped input at (b, d, n). -/
theorem v1_at (b : Fin 8) (n : Fin 16384) (d : Fin 512) :
    val_main_v1 (F := Ideal) x0 (ix3 b n d) = val_main_v0 (F := Ideal) x0 (ix3 b d n) := by
  rw [val_main_v1_apply]
  exact congrArg _ (funext fun a => Fin.ext (by match a with | ⟨0, _⟩ => rfl | ⟨1, _⟩ => rfl | ⟨2, _⟩ => rfl))

/-- The squared norm of the column at (b, n), from zero. -/
theorem v3_at (b : Fin 8) (n : Fin 16384) :
    val_main_v3 (F := Ideal) x0 (ix2 b n)
      = 0 + ∑ d : Fin 512, val_main_v0 (F := Ideal) x0 (ix3 b d n) * val_main_v0 (F := Ideal) x0 (ix3 b d n) := by
  rw [val_main_v3_apply, val_main_cst_apply, Ideal.ofBits_def, Cert.Consts.ofBits_zero]
  refine congrArg (0 + ·) (Finset.sum_congr rfl fun d _ => ?_)
  have e : idx_main_v3 (ix2 b n) d = ix3 b n d :=
    funext fun a => Fin.ext (by match a with | ⟨0, _⟩ => rfl | ⟨1, _⟩ => rfl | ⟨2, _⟩ => rfl)
  rw [e, val_main_v2_apply, Ideal.mulf_def, v1_at]

/-- The squared norm of codeword k, from zero. -/
theorem v5_at (k : Fin 32) :
    val_main_v5 (F := Ideal) x1 (ix1 k) = 0 + ∑ d : Fin 512, x1 (ix2 k d) * x1 (ix2 k d) := by
  rw [val_main_v5_apply, val_main_cst_0_apply, Ideal.ofBits_def, Cert.Consts.ofBits_zero]
  refine congrArg (0 + ·) (Finset.sum_congr rfl fun d _ => ?_)
  have e : idx_main_v5 (ix1 k) d = ix2 k d :=
    funext fun a => Fin.ext (by match a with | ⟨0, _⟩ => rfl | ⟨1, _⟩ => rfl)
  rw [e, val_main_v4_apply, Ideal.mulf_def]

/-- The inner product of the column at (b, n) with codeword k. -/
theorem v6_at (b : Fin 8) (n : Fin 16384) (k : Fin 32) :
    val_main_v6 (F := Ideal) x0 x1 (ix3 b n k)
      = ∑ d : Fin 512, val_main_v0 (F := Ideal) x0 (ix3 b d n) * x1 (ix2 k d) := by
  rw [val_main_v6_apply]
  refine Finset.sum_congr rfl fun d _ => ?_
  have el : lidx_main_v6 (ix3 b n k) d = ix3 b n d :=
    funext fun a => Fin.ext (by match a with | ⟨0, _⟩ => rfl | ⟨1, _⟩ => rfl | ⟨2, _⟩ => rfl)
  have er : ridx_main_v6 (ix3 b n k) d = ix2 k d :=
    funext fun a => Fin.ext (by match a with | ⟨0, _⟩ => rfl | ⟨1, _⟩ => rfl)
  rw [el, er, v1_at]

/-- The scaled distance at (b, n, k) is the specification's `distR`. -/
theorem v17_at (b : Fin 8) (n : Fin 16384) (k : Fin 32) :
    val_main_v17 (F := Ideal) x0 x1 x2 (ix3 b n k)
      = distR two (x2 (ix1 k)) (rowOf x1 k) (colOf (val_main_v0 (F := Ideal) x0) b n) := by
  have e16 : idx_main_v15 (idx_main_v16 (ix3 b n k)) = ix1 k :=
    funext fun a => Fin.ext (by match a with | ⟨0, _⟩ => rfl)
  have e9 : idx_main_v7 (idx_main_v9 (ix3 b n k)) = ix2 b n :=
    funext fun a => Fin.ext (by match a with | ⟨0, _⟩ => rfl | ⟨1, _⟩ => rfl)
  have e10 : idx_main_v8 (idx_main_v10 (ix3 b n k)) = ix1 k :=
    funext fun a => Fin.ext (by match a with | ⟨0, _⟩ => rfl)
  rw [val_main_v17_apply, Ideal.mulf_def, val_main_v16_apply, val_main_v15_apply, e16,
    val_main_v14_apply, Ideal.subf_def, val_main_v11_apply, Ideal.addf_def,
    val_main_v9_apply, val_main_v7_apply, e9, v3_at,
    val_main_v10_apply, val_main_v8_apply, e10, v5_at,
    val_main_v13_apply, Ideal.mulf_def, val_main_v12_apply, val_main_cst_1_apply, Ideal.ofBits_def, v6_at]
  rfl

/-- The maximum over the 32 codewords of the scaled distances at (b, n), folded from the initial value `-∞`. -/
theorem v18_at (b : Fin 8) (n : Fin 16384) :
    val_main_v18 (F := Ideal) x0 x1 x2 (ix2 b n)
      = smax fun k' => val_main_v17 (F := Ideal) x0 x1 x2 (ix3 b n k') := by
  have h : S8x16384x32.Reduces [2] S8x16384 := by decide
  unfold val_main_v18
  rw [Host.reduce_eq_fold_single FloatOps.maximumf _ _ reducesTo_S8x16384x32_S8x16384_d2 h h_S_,
    val_main_cst_2_apply, Ideal.ofBits_def, Cert.Consts.ofBits_neg_inf]
  have hf : (val_main_v17 (F := Ideal) x0 x1 x2 ∘ h.lift (ix2 b n))
      = fun k' : Fin 32 => val_main_v17 (F := Ideal) x0 x1 x2 (ix3 b n k') :=
    funext fun k' => congrArg (val_main_v17 (F := Ideal) x0 x1 x2)
      (funext fun a => Fin.ext (by match a with | ⟨0, _⟩ => rfl | ⟨1, _⟩ => rfl | ⟨2, _⟩ => rfl))
  unfold smax
  exact congrArg (fun f => Finset.fold max (⊥ : EReal) f (Finset.univ : Finset (Fin 32))) hf

/-- The 32 scaled distances of position n of batch b. -/
abbrev dists (b : Fin 8) (n : Fin 16384) : Fin 32 → EReal :=
  fun k' => distR two (x2 (ix1 k')) (rowOf x1 k') (colOf (val_main_v0 (F := Ideal) x0) b n)

/-- The row maximum at (b, n) is the specification's `smax` of the 32 distances: the maximum with `-∞` is dropped. -/
theorem v20_at (b : Fin 8) (n : Fin 16384) :
    val_main_v20 (F := Ideal) x0 x1 x2 (ix2 b n) = smax (dists x0 x1 x2 b n) := by
  rw [val_main_v20_apply, Ideal.maximumf_def, val_main_v19_apply, val_main_cst_3_apply, Ideal.ofBits_def,
    Cert.Consts.ofBits_neg_inf, v18_at, max_eq_right bot_le]
  exact congrArg smax (funext fun k' => v17_at x0 x1 x2 b n k')

/-- The exponential of the distance less the row maximum at (b, n, k). -/
theorem v24_at (b : Fin 8) (n : Fin 16384) (k : Fin 32) :
    val_main_v24 (F := Ideal) x0 x1 x2 (ix3 b n k)
      = Ideal.exp (dists x0 x1 x2 b n k - smax (dists x0 x1 x2 b n)) := by
  have e22 : idx_main_v21 (idx_main_v22 (ix3 b n k)) = ix2 b n :=
    funext fun a => Fin.ext (by match a with | ⟨0, _⟩ => rfl | ⟨1, _⟩ => rfl)
  rw [val_main_v24_apply, Ideal.hostUnary_exp_def, val_main_v23_apply, Ideal.subf_def, v17_at,
    val_main_v22_apply, val_main_v21_apply, e22, v20_at]

/-- The sum of the 32 exponentials at (b, n): the initial zero is dropped. -/
theorem v25_at (b : Fin 8) (n : Fin 16384) :
    val_main_v25 (F := Ideal) x0 x1 x2 (ix2 b n)
      = ∑ k' : Fin 32, Ideal.exp (dists x0 x1 x2 b n k' - smax (dists x0 x1 x2 b n)) := by
  rw [val_main_v25_apply, val_main_cst_4_apply, Ideal.ofBits_def, Cert.Consts.ofBits_zero, zero_add]
  refine Finset.sum_congr rfl fun k' _ => ?_
  have e : idx_main_v25 (ix2 b n) k' = ix3 b n k' :=
    funext fun a => Fin.ext (by match a with | ⟨0, _⟩ => rfl | ⟨1, _⟩ => rfl | ⟨2, _⟩ => rfl)
  rw [e, v24_at]

/-- The normalised exponential at (b, n, k) is the specification's soft assignment. -/
theorem v28_at (b : Fin 8) (n : Fin 16384) (k : Fin 32) :
    val_main_v28 (F := Ideal) x0 x1 x2 (ix3 b n k)
      = assignR two (val_main_v0 (F := Ideal) x0) x1 x2 b n k := by
  have e27 : idx_main_v26 (idx_main_v27 (ix3 b n k)) = ix2 b n :=
    funext fun a => Fin.ext (by match a with | ⟨0, _⟩ => rfl | ⟨1, _⟩ => rfl)
  rw [val_main_v28_apply, Ideal.hostDivf_def, v24_at, val_main_v27_apply, val_main_v26_apply, e27, v25_at]
  rfl

/-- The reference's result at (b, k, d) is the specification's `GR`. -/
theorem result_eq (x0 : (⟨S8x512x128x128, .f32⟩ : BufTy).Contents (Elt Ideal))
    (x1 : (⟨S32x512, .f32⟩ : BufTy).Contents (Elt Ideal)) (x2 : (⟨S32, .f32⟩ : BufTy).Contents (Elt Ideal))
    (b : Fin 8) (k : Fin 32) (d : Fin 512) :
    val_main_v36 (F := Ideal) x0 x1 x2 (ix3 b k d)
      = GR (Ideal.ofBits .f32 0x40000000#32) (val_main_v0 (F := Ideal) x0) x1 x2 b k d := by
  have e33 : idx_main_v31 (idx_main_v33 (ix3 b k d)) = ix2 b k :=
    funext fun a => Fin.ext (by match a with | ⟨0, _⟩ => rfl | ⟨1, _⟩ => rfl)
  have e34 : idx_main_v32 (idx_main_v34 (ix3 b k d)) = ix2 k d :=
    funext fun a => Fin.ext (by match a with | ⟨0, _⟩ => rfl | ⟨1, _⟩ => rfl)
  have hs1 : ∑ n : Fin 16384, val_main_v28 (F := Ideal) x0 x1 x2 (lidx_main_v29 (ix3 b k d) n)
        * val_main_v1 (F := Ideal) x0 (ridx_main_v29 (ix3 b k d) n)
      = ∑ n : Fin 16384, assignR two (val_main_v0 (F := Ideal) x0) x1 x2 b n k
        * val_main_v0 (F := Ideal) x0 (ix3 b d n) :=
    Finset.sum_congr rfl fun n _ => by
      have el : lidx_main_v29 (ix3 b k d) n = ix3 b n k :=
        funext fun a => Fin.ext (by match a with | ⟨0, _⟩ => rfl | ⟨1, _⟩ => rfl | ⟨2, _⟩ => rfl)
      have er : ridx_main_v29 (ix3 b k d) n = ix3 b n d :=
        funext fun a => Fin.ext (by match a with | ⟨0, _⟩ => rfl | ⟨1, _⟩ => rfl | ⟨2, _⟩ => rfl)
      rw [el, er, v28_at, v1_at]
  have hs2 : ∑ n : Fin 16384, val_main_v28 (F := Ideal) x0 x1 x2 (idx_main_v30 (ix2 b k) n)
      = ∑ n : Fin 16384, assignR two (val_main_v0 (F := Ideal) x0) x1 x2 b n k :=
    Finset.sum_congr rfl fun n _ => by
      have e : idx_main_v30 (ix2 b k) n = ix3 b n k :=
        funext fun a => Fin.ext (by match a with | ⟨0, _⟩ => rfl | ⟨1, _⟩ => rfl | ⟨2, _⟩ => rfl)
      rw [e, v28_at]
  rw [val_main_v36_apply, Ideal.subf_def, val_main_v29_apply, hs1, val_main_v35_apply, Ideal.mulf_def,
    val_main_v33_apply, val_main_v31_apply, e33, val_main_v30_apply, hs2, val_main_cst_5_apply, Ideal.ofBits_def,
    Cert.Consts.ofBits_zero, val_main_v34_apply, val_main_v32_apply, e34]
  rfl

end Cert.ReferenceIdeal.RefValue

end
-- ==== Proof.Algebra.lean ====
/-
  The kernel's and the reference's results agree on real inputs.

  When every input is a real number, every intermediate quantity is a real number (sums, products, the
  maximum of 32 reals, exponentials, and a quotient by a positive sum), so both sides can be computed in the
  reals, where the identity is ring algebra plus the splitting of a sum over 16384 positions into the four
  tiles of 4096 positions.
-/
import proofs.«130324_j36206574305918_2_alg».proof.Proof.Spec

noncomputable section

namespace Cert.SoftAssign

open Idealize.ShloMosaic Idealize.ShloMosaic.ValueIdx

/-- An extended real that is (the image of) a real number. -/
def IsR (x : EReal) : Prop := ∃ r : ℝ, x = r

/-- The sum of the images of reals is the image of their sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum, from `-∞`, of the images of reals over a finite set is `-∞` on the empty set and a real otherwise. -/
theorem fold_max_coe {ι : Type} (s : Finset ι) (f : ι → ℝ) :
    (s = ∅ ∧ s.fold max (⊥ : EReal) (fun i => ((f i : ℝ) : EReal)) = ⊥)
      ∨ IsR (s.fold max (⊥ : EReal) (fun i => ((f i : ℝ) : EReal))) := by
  classical
  induction s using Finset.induction_on with
  | empty => exact Or.inl ⟨rfl, Finset.fold_empty⟩
  | insert a s ha ih =>
    right
    rw [Finset.fold_insert ha]
    rcases ih with ⟨_, h⟩ | ⟨m, h⟩
    · rw [h]; exact ⟨f a, max_bot_right _⟩
    · rw [h]; exact ⟨max (f a) m, (EReal.coe_strictMono.monotone.map_max).symm⟩

/-- The maximum of 32 reals is a real. -/
theorem smax_isR (r : Fin 32 → ℝ) : IsR (smax fun k => ((r k : ℝ) : EReal)) := by
  rcases fold_max_coe (Finset.univ : Finset (Fin 32)) r with ⟨h, _⟩ | h
  · exact absurd h (Finset.univ_nonempty.ne_empty)
  · exact h

/-- The softmax weights of 32 reals are reals: the denominator is a sum of positive reals. -/
theorem soft_isR (sl : Fin 32 → EReal) (h : ∀ k, IsR (sl k)) (k : Fin 32) : IsR (soft sl k) := by
  choose r hr using h
  obtain rfl : sl = fun k => ((r k : ℝ) : EReal) := funext hr
  obtain ⟨m, hm⟩ := smax_isR r
  unfold soft
  rw [hm]
  simp only [← EReal.coe_sub, Ideal.exp_coe, coe_sum]
  have hpos : (∑ k' : Fin 32, Real.exp (r k' - m)) ≠ 0 :=
    (Finset.sum_pos (fun i _ => Real.exp_pos _) Finset.univ_nonempty).ne'
  rw [Ideal.div_coe hpos, ← EReal.coe_mul]
  exact ⟨_, rfl⟩

/-- On reals the two spellings of the scaled squared distance agree, and their value is a real. -/
theorem distK_eq_distR_and_isR (two s : EReal) (row col : Fin 512 → EReal)
    (htwo : IsR two) (hs : IsR s) (hrow : ∀ d, IsR (row d)) (hcol : ∀ d, IsR (col d)) :
    distK two s row col = distR two s row col ∧ IsR (distR two s row col) := by
  obtain ⟨t, rfl⟩ := htwo
  obtain ⟨σ, rfl⟩ := hs
  choose r hr using hrow
  choose c hc using hcol
  obtain rfl : row = fun d => ((r d : ℝ) : EReal) := funext hr
  obtain rfl : col = fun d => ((c d : ℝ) : EReal) := funext hc
  simp only [distK, distR, dot, zero_add, ← EReal.coe_mul, coe_sum, ← EReal.coe_add, ← EReal.coe_sub]
  refine ⟨?_, ⟨_, rfl⟩⟩
  have hcomm : ∑ d, r d * c d = ∑ d, c d * r d := Finset.sum_congr rfl fun d _ => mul_comm _ _
  rw [hcomm]
  rw [EReal.coe_eq_coe_iff]
  ring

/-- Position `q` of the 16384 is position `q % 4096` of tile `q / 4096`. -/
def tileEquiv : Fin 4 × Fin 4096 ≃ Fin 16384 where
  toFun p := tile p.1 p.2
  invFun q := (⟨q.val / 4096, by have := q.isLt; omega⟩, ⟨q.val % 4096, by omega⟩)
  left_inv p := by
    obtain ⟨j, n⟩ := p
    have hj := j.isLt
    have hn := n.isLt
    apply Prod.ext <;> apply Fin.ext <;> simp only [tile] <;> omega
  right_inv q := by
    have hq := q.isLt
    apply Fin.ext
    simp only [tile]
    omega

/-- A sum over the 16384 positions is the sum of the four tiles' sums. -/
theorem sum_tiles (f : Fin 16384 → ℝ) :
    ∑ n', f n' = (∑ n, f (tile 0 n)) + (∑ n, f (tile 1 n)) + (∑ n, f (tile 2 n)) + ∑ n, f (tile 3 n) := by
  rw [← Equiv.sum_comp tileEquiv f, Fintype.sum_prod_type, Fin.sum_univ_four]
  rfl

/-- The four tiles' terms added from zero are the two full sums' difference, on reals. -/
theorem tiles_eq_full (xE aE : Fin 16384 → EReal) (cE : EReal)
    (hx : ∀ n, IsR (xE n)) (ha : ∀ n, IsR (aE n)) (hc : IsR cE) :
    (((0 + tileTerm (fun n => xE (tile 0 n)) (fun n => aE (tile 0 n)) cE)
        + tileTerm (fun n => xE (tile 1 n)) (fun n => aE (tile 1 n)) cE)
        + tileTerm (fun n => xE (tile 2 n)) (fun n => aE (tile 2 n)) cE)
        + tileTerm (fun n => xE (tile 3 n)) (fun n => aE (tile 3 n)) cE
      = (∑ n : Fin 16384, aE n * xE n) - (0 + ∑ n : Fin 16384, aE n) * cE := by
  choose x hx' using hx
  choose a ha' using ha
  obtain ⟨c, rfl⟩ := hc
  obtain rfl : xE = fun n => ((x n : ℝ) : EReal) := funext hx'
  obtain rfl : aE = fun n => ((a n : ℝ) : EReal) := funext ha'
  simp only [tileTerm, zero_add, ← EReal.coe_mul, coe_sum, ← EReal.coe_add, ← EReal.coe_sub]
  have hcomm : ∑ n, a n * x n = ∑ n, x n * a n := Finset.sum_congr rfl fun n _ => mul_comm _ _
  rw [hcomm, sum_tiles (fun n => x n * a n), sum_tiles a]
  rw [EReal.coe_eq_coe_iff]
  ring

theorem GK_eq_GR (two : EReal) (X : SX.Idx → EReal) (cw : SC.Idx → EReal) (sc : SS.Idx → EReal)
    (htwo : ∃ r : ℝ, two = r) (hX : ∀ i, ∃ r : ℝ, X i = r) (hcw : ∀ i, ∃ r : ℝ, cw i = r)
    (hsc : ∀ i, ∃ r : ℝ, sc i = r)
    (b : Fin 8) (k : Fin 32) (d : Fin 512) :
    GK two X cw sc b k d = GR two X cw sc b k d := by
  have hdist : ∀ (n : Fin 16384) (k' : Fin 32),
      distK two (sc (ix1 k')) (rowOf cw k') (colOf X b n) = distR two (sc (ix1 k')) (rowOf cw k') (colOf X b n)
        ∧ IsR (distR two (sc (ix1 k')) (rowOf cw k') (colOf X b n)) := fun n k' =>
    distK_eq_distR_and_isR two (sc (ix1 k')) (rowOf cw k') (colOf X b n) htwo (hsc _)
      (fun d' => hcw (ix2 k' d')) (fun d' => hX (ix3 b d' n))
  have hA : assignK two X cw sc b = assignR two X cw sc b := by
    funext n k''
    unfold assignK assignR
    congr 1
    funext k'
    exact (hdist n k').1
  have hAR : ∀ n, IsR (assignR two X cw sc b n k) := fun n =>
    soft_isR _ (fun k' => (hdist n k').2) k
  unfold GK GR termK
  rw [hA]
  exact tiles_eq_full (fun n => X (ix3 b d n)) (fun n => assignR two X cw sc b n k) (cw (ix2 k d))
    (fun n => hX _) hAR (hcw _)

end Cert.SoftAssign

end
-- ==== Proof.Finite.lean ====
/-
  The precondition makes every input element a real number.

  The precondition is the conjunction, over the three inputs, of "every element has absolute value below `+∞`".
  An extended real whose absolute value `max x (-x)` is below `+∞` is neither infinity, so it is a real.
-/
import proofs.«130324_j36206574305918_2_alg».proof.Proof.Gen.Pre_finite_inputs
import proofs.«130324_j36206574305918_2_alg».proof.Proof.Consts
import Idealize.ShloMosaic.Lib.ReduceAll
import Idealize.ShloMosaic.Lib.ValueIdx

noncomputable section

namespace Cert.Finite

open Idealize.ShloMosaic Idealize.ShloMosaic.ValueIdx

/-- The shape of rank zero has one index. -/
instance : Subsingleton Cert.Pre_finite_inputs.S_.Idx := ⟨fun _ _ => funext fun d => d.elim0⟩

/-- An extended real whose absolute value is below `+∞` is a real. -/
theorem real_of_abs_lt_top (x : EReal) (h : Ideal.cmp .olt (max x (-x)) ⊤ = 1#1) : ∃ r : ℝ, x = r := by
  induction x using EReal.rec with
  | bot => exact absurd h (by simp [Ideal.cmp])
  | coe r => exact ⟨r, rfl⟩
  | top => exact absurd h (by simp [Ideal.cmp])

/-- An element of a vector whose comparison "absolute value below the splat of `+∞`" is one is a real. -/
theorem elem_real {s : Shape} (x : FVec Ideal s .f32)
    (hb : Cert.Pre_finite_inputs.S_.BroadcastsInDim s (![] : Fin 0 → Fin s.rank)) (i : s.Idx)
    (h : cmpf .olt (Host.absf x)
      (broadcastInDim s ![] hb (constant (F := Ideal) Cert.Pre_finite_inputs.S_ .f32 0x7F800000#32)) i = 1#1) :
    ∃ r : ℝ, x i = r := by
  have h' : Ideal.cmp .olt (max (x i) (-(x i))) (Ideal.ofBits .f32 0x7F800000#32) = 1#1 := h
  rw [Cert.Consts.ofBits_inf] at h'
  exact real_of_abs_lt_top (x i) h'

theorem finite_of_pre (x0 : (⟨Cert.Pre_finite_inputs.S8x512x128x128, .f32⟩ : BufTy).Contents (Elt Ideal))
    (x1 : (⟨Cert.Pre_finite_inputs.S32x512, .f32⟩ : BufTy).Contents (Elt Ideal))
    (x2 : (⟨Cert.Pre_finite_inputs.S32, .f32⟩ : BufTy).Contents (Elt Ideal))
    (h : Cert.Pre_finite_inputs.fn (F := Ideal) x0 x1 x2 = (fun _ => 1#1)) :
    (∀ i, ∃ r : ℝ, x0 i = r) ∧ (∀ i, ∃ r : ℝ, x1 i = r) ∧ (∀ i, ∃ r : ℝ, x2 i = r) := by
  have h0 := congrFun h ValueIdx.ix0
  dsimp only [Cert.Pre_finite_inputs.fn] at h0
  obtain ⟨h8, h12⟩ := IntOp.andi_eq_one.1 h0
  obtain ⟨h3, h7⟩ := IntOp.andi_eq_one.1 h8
  refine ⟨fun i => ?_, fun i => ?_, fun i => ?_⟩
  · exact elem_real x0 _ i (Host.reduce_andi_all _ _ _ _ _ h3 i)
  · exact elem_real x1 _ i (Host.reduce_andi_all _ _ _ _ _ h7 i)
  · exact elem_real x2 _ i (Host.reduce_andi_all _ _ _ _ _ h12 i)

end Cert.Finite

end
-- ==== Proof.lean ====
/-
  The certificate's claims, assembled.

  The kernel computes, per batch, the soft assignment of each of the 16384 positions to the 32 codewords (a softmax of
  scaled squared distances) tile by tile, and accumulates `∑ₙ A·X − (∑ₙ A)·C` over the four tiles of a batch; the
  reference computes the same two sums over all positions at once. On finite inputs every quantity is a real number,
  and the two results agree by ring algebra and the regrouping of a finite sum. The frames of the two kernel programs
  are the generated ones; the reference's frame is its generated run with the result dropped; the idealization
  rewrote nothing.
-/
import proofs.«130324_j36206574305918_2_alg».proof.Defs
import proofs.«130324_j36206574305918_2_alg».proof.Proof.Gen.Kernel
import proofs.«130324_j36206574305918_2_alg».proof.Proof.Gen.Kernel.Skeleton
import proofs.«130324_j36206574305918_2_alg».proof.Proof.Gen.Kernel.Launch
import proofs.«130324_j36206574305918_2_alg».proof.Proof.Gen.Kernel.Points
import proofs.«130324_j36206574305918_2_alg».proof.Proof.Gen.Kernel.Frame
import proofs.«130324_j36206574305918_2_alg».proof.Proof.Gen.KernelIdeal
import proofs.«130324_j36206574305918_2_alg».proof.Proof.Gen.KernelIdeal.Skeleton
import proofs.«130324_j36206574305918_2_alg».proof.Proof.Gen.KernelIdeal.Launch
import proofs.«130324_j36206574305918_2_alg».proof.Proof.Gen.KernelIdeal.Points
import proofs.«130324_j36206574305918_2_alg».proof.Proof.Gen.KernelIdeal.Frame
import proofs.«130324_j36206574305918_2_alg».proof.Proof.Gen.ReferenceIdeal
import proofs.«130324_j36206574305918_2_alg».proof.Proof.Gen.Pre_finite_inputs
import proofs.«130324_j36206574305918_2_alg».proof.Proof.Gen.KernelIdeal.Value
import proofs.«130324_j36206574305918_2_alg».proof.Proof.Gen.ReferenceIdeal.Run
import proofs.«130324_j36206574305918_2_alg».proof.Proof.Gen.ReferenceIdeal.Read
import proofs.«130324_j36206574305918_2_alg».proof.Proof.Result
import proofs.«130324_j36206574305918_2_alg».proof.Proof.RefRead
import proofs.«130324_j36206574305918_2_alg».proof.Proof.Algebra
import proofs.«130324_j36206574305918_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reshaped input the kernel's region finds is the reference's first stage of the same argument array. -/
theorem input_eq (m : (ℓ : Loc Cert.KernelIdeal.nD Cert.KernelIdeal.τ Cert.KernelIdeal.sig) → Buf (Elt Ideal) ℓ) (c : Dev Cert.KernelIdeal.nD) :
    Cert.KernelIdeal.Blocks.xOf m c
      = Cert.ReferenceIdeal.Read.val_main_v0 (F := Ideal) (m ((c.tc : Thread Cert.KernelIdeal.nD Cert.KernelIdeal.τ).loc Cert.KernelIdeal.main_arg0)) :=
  (Cert.KernelIdeal.Blocks.V_v0 m c).trans rfl

/-- On finite inputs the two programs' results agree: the kernel's array ends at the four-tile sums, the reference's
    at the full sums, and these are equal real numbers. -/
theorem algebraic : Cert.algebraic_KernelIdeal_ReferenceIdeal := by
  intro m ρ m' ρ' hpre hagree
  refine ⟨fun c => Cert.KernelIdeal.Result.Gout m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2]
  obtain ⟨h0, h1, h2⟩ := Cert.Finite.finite_of_pre _ _ _ (hpre c)
  funext i
  obtain ⟨b, k, d, rfl⟩ : ∃ (b : Fin 8) (k : Fin 32) (d : Fin 512), i = ix3 b k d := ⟨i 0, i 1, i 2, eq_ix3 i⟩
  rw [Cert.ReferenceIdeal.RefValue.result_eq]
  show _ = Cert.SoftAssign.GK Cert.KernelIdeal.Accum.two (Cert.KernelIdeal.Blocks.xOf m c) (Cert.KernelIdeal.Blocks.cwOf m c) (Cert.KernelIdeal.Blocks.scOf m c) b k d
  rw [input_eq m c]
  refine (Cert.SoftAssign.GK_eq_GR _ _ _ _ ⟨2, Cert.Consts.ofBits_two⟩ (fun j => ?_) h1 h2 b k d).symm
  rw [Cert.ReferenceIdeal.Read.val_main_v0_apply]
  exact h0 _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
